-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x48x64 : Shape := ⟨3, ![1024, 48, 64]⟩
abbrev S1024x48x48 : Shape := ⟨3, ![1024, 48, 48]⟩
abbrev S64x64 : Shape := ⟨2, ![64, 64]⟩
abbrev S64 : Shape := ⟨1, ![64]⟩
abbrev S_ : Shape := ⟨0, ![]⟩

class Facts : Prop where
  bcast_S_S1024x48x64 : S_.BroadcastsInDim S1024x48x64 (![] : Fin 0 → Fin S1024x48x64.rank)
  reducesTo_S1024x48x64_S_d0_1_2 : S1024x48x64.ReducesTo [0, 1, 2] S_
  h_S_ : 0 < S_.numel
  bcast_S_S1024x48x48 : S_.BroadcastsInDim S1024x48x48 (![] : Fin 0 → Fin S1024x48x48.rank)
  reducesTo_S1024x48x48_S_d0_1_2 : S1024x48x48.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S1024x48x64 .f32) (main_arg1 : FVec F S1024x48x48 .f32) (main_arg2 : FVec F S64x64 .f32) (main_arg3 : FVec F S64 .f32) (main_arg4 : FVec F S64x64 .f32) (main_arg5 : FVec F S64 .f32) : IVec S_ 1 :=
  let main_v0 : FVec F S1024x48x64 .f32 := Host.absf main_arg0
  let main_cst : FVec F S_ .f32 := constant S_ .f32 0x7F800000#32
  let main_v1 : FVec F S1024x48x64 .f32 := broadcastInDim S1024x48x64 ![] bcast_S_S1024x48x64 main_cst
  let main_v2 : IVec S1024x48x64 1 := cmpf .olt main_v0 main_v1
  let main_c : IVec S_ 1 := constantI S_ 1 1#1
  let main_v3 : IVec S_ 1 := (fun x v => Host.reduce IntOp.andi x v reducesTo_S1024x48x64_S_d0_1_2 h_S_) main_v2 main_c
  let main_v4 : FVec F S1024x48x48 .f32 := Host.absf main_arg1
  let main_cst_0 : FVec F S_ .f32 := constant S_ .f32 0x7F800000#32
  let main_v5 : FVec F S1024x48x48 .f32 := broadcastInDim S1024x48x48 ![] bcast_S_S1024x48x48 main_cst_0
  let main_v6 : IVec S1024x48x48 1 := cmpf .olt main_v4 main_v5
  let main_c_1 : IVec S_ 1 := constantI S_ 1 1#1
  let main_v7 : IVec S_ 1 := (fun x v => Host.reduce IntOp.andi x v reducesTo_S1024x48x48_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S1024x48x64 : Shape := ⟨3, ![1024, 48, 64]⟩
abbrev S1024x48x48 : Shape := ⟨3, ![1024, 48, 48]⟩
abbrev S64x64 : Shape := ⟨2, ![64, 64]⟩
abbrev S64 : Shape := ⟨1, ![64]⟩
abbrev S1x64 : Shape := ⟨2, ![1, 64]⟩
abbrev S256x48x64 : Shape := ⟨3, ![256, 48, 64]⟩
abbrev S256x48x48 : Shape := ⟨3, ![256, 48, 48]⟩
abbrev S256x48 : Shape := ⟨2, ![256, 48]⟩
abbrev S48x48 : Shape := ⟨2, ![48, 48]⟩
abbrev S1x48x48 : Shape := ⟨3, ![1, 48, 48]⟩
abbrev S256x48x1 : Shape := ⟨3, ![256, 48, 1]⟩
abbrev S256x1x48 : Shape := ⟨3, ![256, 1, 48]⟩
abbrev S12288x64 : Shape := ⟨2, ![12288, 64]⟩
abbrev S1x1x64 : Shape := ⟨3, ![1, 1, 64]⟩

abbrev nBuf : Space → Nat
  | .hbm => 9
  | .vmem => 10
  | .smem => 0
  | _ => 0

abbrev bufTy : (tb : Table) → Fin (tcTables nBuf tb) → BufTy
  | .hbm, ⟨0, _⟩ => ⟨S1024x48x64, .f32⟩
  | .hbm, ⟨1, _⟩ => ⟨S1024x48x48, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x64, .f32⟩
  | .hbm, ⟨7, _⟩ => ⟨S1x64, .f32⟩
  | .hbm, ⟨8, _⟩ => ⟨S1024x48x64, .f32⟩
  | .local _ .vmem, ⟨0, _⟩ => ⟨S256x48x64, .f32⟩
  | .local _ .vmem, ⟨1, _⟩ => ⟨S256x48x64, .f32⟩
  | .local _ .vmem, ⟨2, _⟩ => ⟨S256x48x48, .f32⟩
  | .local _ .vmem, ⟨3, _⟩ => ⟨S256x48x48, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S256x48x64, .f32⟩
  | .local _ .vmem, ⟨9, _⟩ => ⟨S256x48x64, .f32⟩
  | _, _ => ⟨S1024x48x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x48x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x48x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x48x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64_S1x64 : S64.ShapeCasts S1x64
  inb_S256x48x64_S256x48x64_0_0_0 : ∀ a, (![0, 0, 0] : Fin 3 → Nat) a + S256x48x64.size a ≤ S256x48x64.size a
  h_S256x48x64 : 0 < S256x48x64.numel
  inb_S256x48x48_S256x48x48_0_0_0 : ∀ a, (![0, 0, 0] : Fin 3 → Nat) a + S256x48x48.size a ≤ S256x48x48.size a
  h_S256x48x48 : 0 < S256x48x48.numel
  natLt_1_32 : 1 < 32
  reduces_S256x48x48_S256x48 : S256x48x48.Reduces [1] S256x48
  iota_S48x48_d0_w32 : S48x48.Iotas .tc 32 [0]
  iota_S48x48_d1_w32 : S48x48.Iotas .tc 32 [1]
  shapeCasts_S48x48_S1x48x48 : S48x48.ShapeCasts S1x48x48
  broadcasts_S1x48x48_S256x48x48 : S1x48x48.Broadcasts S256x48x48
  shapeCasts_S256x48_S256x48x1 : S256x48.ShapeCasts S256x48x1
  broadcasts_S256x48x1_S256x48x48 : S256x48x1.Broadcasts S256x48x48
  shapeCasts_S256x48_S256x1x48 : S256x48.ShapeCasts S256x1x48
  broadcasts_S256x1x48_S256x48x48 : S256x1x48.Broadcasts S256x48x48
  shapeCasts_S256x48x64_S12288x64 : S256x48x64.ShapeCasts S12288x64
  inb_S64x64_S64x64_0_0 : ∀ a, (![0, 0] : Fin 2 → Nat) a + S64x64.size a ≤ S64x64.size a
  h_S64x64 : 0 < S64x64.numel
  shapeCasts_S12288x64_S256x48x64 : S12288x64.ShapeCasts S256x48x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  broadcasts_S1x1x64_S256x48x64 : S1x1x64.Broadcasts S256x48x64
  dot_S12288x64_S64x64_S12288x64_1_0_0_1_n_n_wf : DotDims.WF S12288x64 S64x64 S12288x64 [1] [0] [0] [1] [] []
  dot_S256x48x48_S256x48x64_S256x48x64_1_1_2_2_0_0_wf : DotDims.WF S256x48x48 S256x48x64 S256x48x64 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x48x64.size a ≤ S1024x48x64.size a
  hwx0_0 : ∀ i : grid0.Coords, EltTy.bits .f32 = 32 ∨ (Rect.block (s := S1024x48x64) S256x48x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x48x48.size a ≤ S1024x48x48.size a
  hwx0_1 : ∀ i : grid0.Coords, EltTy.bits .f32 = 32 ∨ (Rect.block (s := S1024x48x48) S256x48x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x48x64.size a ≤ S1024x48x64.size a
  hwx0_6 : ∀ i : grid0.Coords, EltTy.bits .f32 = 32 ∨ (Rect.block (s := S1024x48x64) S256x48x64.size (cc0_transform_6 i) (hinb0_6 i)).WholeWords (EltTy.packing .f32)

variable [Facts₀]

def dot_S12288x64_S64x64_S12288x64_1_0_0_1_n_n : DotDims S12288x64 S64x64 S12288x64 where
  lhsContracting := [1]
  rhsContracting := [0]
  lhsNonContracting := [0]
  rhsNonContracting := [1]
  lhsBatch := []
  rhsBatch := []
  wf := dot_S12288x64_S64x64_S12288x64_1_0_0_1_n_n_wf
def dot_S256x48x48_S256x48x64_S256x48x64_1_1_2_2_0_0 : DotDims S256x48x48 S256x48x64 S256x48x64 where
  lhsContracting := [1]
  rhsContracting := [1]
  lhsNonContracting := [2]
  rhsNonContracting := [2]
  lhsBatch := [0]
  rhsBatch := [0]
  wf := dot_S256x48x48_S256x48x64_S256x48x64_1_1_2_2_0_0_wf

abbrev win0_0 : Pipeline.Window sig grid0 :=
  Pipeline.Window.ofSpec (Memref.whole main_arg0) S256x48x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x48x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256x48x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x48x64 : Shape := ⟨3, ![1024, 48, 64]⟩
abbrev S1024x48x48 : Shape := ⟨3, ![1024, 48, 48]⟩
abbrev S64x64 : Shape := ⟨2, ![64, 64]⟩
abbrev S64 : Shape := ⟨1, ![64]⟩
abbrev S49152x64 : Shape := ⟨2, ![49152, 64]⟩
abbrev S_ : Shape := ⟨0, ![]⟩
abbrev S1024 : Shape := ⟨1, ![1024]⟩
abbrev S48 : Shape := ⟨1, ![48]⟩
abbrev S2359296 : Shape := ⟨1, ![2359296]⟩
abbrev S49152 : Shape := ⟨1, ![49152]⟩
abbrev S2408448 : Shape := ⟨1, ![2408448]⟩
abbrev S2408448x1 : Shape := ⟨2, ![2408448, 1]⟩
abbrev S2408448x64 : Shape := ⟨2, ![2408448, 64]⟩
abbrev S1x64 : Shape := ⟨2, ![1, 64]⟩

abbrev nBuf : Space → Nat
  | .hbm => 181
  | .vmem => 0
  | .smem => 0
  | _ => 0

abbrev hbmTy0_0 (i : Nat) : BufTy := match i % 128 with
  | 0 => ⟨S1024x48x64, .f32⟩
  | 1 => ⟨S1024x48x48, .f32⟩
  | 2 => ⟨S64x64, .f32⟩
  | 3 => ⟨S64, .f32⟩
  | 4 => ⟨S64x64, .f32⟩
  | 5 => ⟨S64, .f32⟩
  | 6 => ⟨S49152x64, .f32⟩
  | 7 => ⟨S_, .f32⟩
  | 8 => ⟨S1024x48x48, .f32⟩
  | 9 => ⟨S1024x48x48, .i1⟩
  | 10 => ⟨S1024, .i32⟩
  | 11 => ⟨S48, .i32⟩
  | 12 => ⟨S48, .i32⟩
  | 13 => ⟨S1024x48x48, .i32⟩
  | 14 => ⟨S1024x48x48, .i32⟩
  | 15 => ⟨S1024x48x48, .i32⟩
  | 16 => ⟨S2359296, .i32⟩
  | 17 => ⟨S2359296, .i32⟩
  | 18 => ⟨S2359296, .i32⟩
  | 19 => ⟨S2359296, .i1⟩
  | 20 => ⟨S2359296, .f32⟩
  | 21 => ⟨S_, .i32⟩
  | 22 => ⟨S2359296, .i32⟩
  | 23 => ⟨S2359296, .i32⟩
  | 24 => ⟨S2359296, .i32⟩
  | 25 => ⟨S_, .i32⟩
  | 26 => ⟨S2359296, .i32⟩
  | 27 => ⟨S2359296, .i32⟩
  | 28 => ⟨S2359296, .i32⟩
  | 29 => ⟨S49152x64, .f32⟩
  | 30 => ⟨S49152, .i32⟩
  | 31 => ⟨S2408448, .i32⟩
  | 32 => ⟨S2408448, .i32⟩
  | 33 => ⟨S_, .f32⟩
  | 34 => ⟨S49152, .f32⟩
  | 35 => ⟨S2408448, .f32⟩
  | 36 => ⟨S_, .f32⟩
  | 37 => ⟨S49152, .f32⟩
  | 38 => ⟨S_, .i32⟩
  | 39 => ⟨S2408448, .i32⟩
  | 40 => ⟨S2408448, .i1⟩
  | 41 => ⟨S_, .i32⟩
  | 42 => ⟨S2408448, .i32⟩
  | 43 => ⟨S2408448, .i32⟩
  | 44 => ⟨S2408448, .i32⟩
  | 45 => ⟨S2408448x1, .i32⟩
  | 46 => ⟨S49152, .f32⟩
  | 47 => ⟨S_, .f32⟩
  | 48 => ⟨S49152, .f32⟩
  | 49 => ⟨S49152, .i1⟩
  | 50 => ⟨S_, .f32⟩
  | 51 => ⟨S49152, .f32⟩
  | 52 => ⟨S49152, .f32⟩
  | 53 => ⟨S_, .f32⟩
  | 54 => ⟨S_, .f32⟩
  | 55 => ⟨S49152, .f32⟩
  | 56 => ⟨S49152, .f32⟩
  | 57 => ⟨S_, .i32⟩
  | 58 => ⟨S2408448, .i32⟩
  | 59 => ⟨S2408448, .i1⟩
  | 60 => ⟨S_, .i32⟩
  | 61 => ⟨S2408448, .i32⟩
  | 62 => ⟨S2408448, .i32⟩
  | 63 => ⟨S2408448, .i32⟩
  | 64 => ⟨S2408448x1, .i32⟩
  | 65 => ⟨S2408448, .f32⟩
  | 66 => ⟨S2408448, .f32⟩
  | 67 => ⟨S_, .i32⟩
  | 68 => ⟨S2408448, .i32⟩
  | 69 => ⟨S2408448, .i1⟩
  | 70 => ⟨S_, .i32⟩
  | 71 => ⟨S2408448, .i32⟩
  | 72 => ⟨S2408448, .i32⟩
  | 73 => ⟨S2408448, .i32⟩
  | 74 => ⟨S2408448x1, .i32⟩
  | 75 => ⟨S2408448, .f32⟩
  | 76 => ⟨S2408448, .f32⟩
  | 77 => ⟨S_, .i32⟩
  | 78 => ⟨S2408448, .i32⟩
  | 79 => ⟨S2408448, .i1⟩
  | 80 => ⟨S_, .i32⟩
  | 81 => ⟨S2408448, .i32⟩
  | 82 => ⟨S2408448, .i32⟩
  | 83 => ⟨S2408448, .i32⟩
  | 84 => ⟨S2408448x1, .i32⟩
  | 85 => ⟨S2408448x64, .f32⟩
  | 86 => ⟨S2408448x1, .f32⟩
  | 87 => ⟨S2408448x64, .f32⟩
  | 88 => ⟨S2408448x64, .f32⟩
  | 89 => ⟨S_, .f32⟩
  | 90 => ⟨S49152x64, .f32⟩
  | 91 => ⟨S_, .i32⟩
  | 92 => ⟨S2408448, .i32⟩
  | 93 => ⟨S2408448, .i1⟩
  | 94 => ⟨S_, .i32⟩
  | 95 => ⟨S2408448, .i32⟩
  | 96 => ⟨S2408448, .i32⟩
  | 97 => ⟨S2408448, .i32⟩
  | 98 => ⟨S2408448x1, .i32⟩
  | 99 => ⟨S49152x64, .f32⟩
  | 100 => ⟨S1x64, .f32⟩
  | 101 => ⟨S49152x64, .f32⟩
  | 102 => ⟨S49152x64, .f32⟩
  | 103 => ⟨S_, .f32⟩
  | 104 => ⟨S49152x64, .f32⟩
  | 105 => ⟨S49152x64, .f32⟩
  | 106 => ⟨S49152x64, .f32⟩
  | 107 => ⟨S49152, .i32⟩
  | 108 => ⟨S2408448, .i32⟩
  | 109 => ⟨S2408448, .i32⟩
  | 110 => ⟨S_, .f32⟩
  | 111 => ⟨S49152, .f32⟩
  | 112 => ⟨S2408448, .f32⟩
  | 113 => ⟨S_, .f32⟩
  | 114 => ⟨S49152, .f32⟩
  | 115 => ⟨S_, .i32⟩
  | 116 => ⟨S2408448, .i32⟩
  | 117 => ⟨S2408448, .i1⟩
  | 118 => ⟨S_, .i32⟩
  | 119 => ⟨S2408448, .i32⟩
  | 120 => ⟨S2408448, .i32⟩
  | 121 => ⟨S2408448, .i32⟩
  | 122 => ⟨S2408448x1, .i32⟩
  | 123 => ⟨S49152, .f32⟩
  | 124 => ⟨S_, .f32⟩
  | 125 => ⟨S49152, .f32⟩
  | 126 => ⟨S49152, .i1⟩
  | 127 => ⟨S_, .f32⟩
  | _ => ⟨S1024x48x64, .f32⟩

abbrev hbmTy0_1 (i : Nat) : BufTy := match i % 128 with
  | 0 => ⟨S49152, .f32⟩
  | 1 => ⟨S49152, .f32⟩
  | 2 => ⟨S_, .f32⟩
  | 3 => ⟨S_, .f32⟩
  | 4 => ⟨S49152, .f32⟩
  | 5 => ⟨S49152, .f32⟩
  | 6 => ⟨S_, .i32⟩
  | 7 => ⟨S2408448, .i32⟩
  | 8 => ⟨S2408448, .i1⟩
  | 9 => ⟨S_, .i32⟩
  | 10 => ⟨S2408448, .i32⟩
  | 11 => ⟨S2408448, .i32⟩
  | 12 => ⟨S2408448, .i32⟩
  | 13 => ⟨S2408448x1, .i32⟩
  | 14 => ⟨S2408448, .f32⟩
  | 15 => ⟨S2408448, .f32⟩
  | 16 => ⟨S_, .i32⟩
  | 17 => ⟨S2408448, .i32⟩
  | 18 => ⟨S2408448, .i1⟩
  | 19 => ⟨S_, .i32⟩
  | 20 => ⟨S2408448, .i32⟩
  | 21 => ⟨S2408448, .i32⟩
  | 22 => ⟨S2408448, .i32⟩
  | 23 => ⟨S2408448x1, .i32⟩
  | 24 => ⟨S2408448, .f32⟩
  | 25 => ⟨S2408448, .f32⟩
  | 26 => ⟨S_, .i32⟩
  | 27 => ⟨S2408448, .i32⟩
  | 28 => ⟨S2408448, .i1⟩
  | 29 => ⟨S_, .i32⟩
  | 30 => ⟨S2408448, .i32⟩
  | 31 => ⟨S2408448, .i32⟩
  | 32 => ⟨S2408448, .i32⟩
  | 33 => ⟨S2408448x1, .i32⟩
  | 34 => ⟨S2408448x64, .f32⟩
  | 35 => ⟨S2408448x1, .f32⟩
  | 36 => ⟨S2408448x64, .f32⟩
  | 37 => ⟨S2408448x64, .f32⟩
  | 38 => ⟨S_, .f32⟩
  | 39 => ⟨S49152x64, .f32⟩
  | 40 => ⟨S_, .i32⟩
  | 41 => ⟨S2408448, .i32⟩
  | 42 => ⟨S2408448, .i1⟩
  | 43 => ⟨S_, .i32⟩
  | 44 => ⟨S2408448, .i32⟩
  | 45 => ⟨S2408448, .i32⟩
  | 46 => ⟨S2408448, .i32⟩
  | 47 => ⟨S2408448x1, .i32⟩
  | 48 => ⟨S49152x64, .f32⟩
  | 49 => ⟨S1x64, .f32⟩
  | 50 => ⟨S49152x64, .f32⟩
  | 51 => ⟨S49152x64, .f32⟩
  | 52 => ⟨S1024x48x64, .f32⟩
  | _ => ⟨S1024x48x64, .f32⟩

abbrev hbmTy (i : Nat) : BufTy := match i / 128 with
  | 0 => hbmTy0_0 i
  | 1 => hbmTy0_1 i
  | _ => ⟨S1024x48x64, .f32⟩

abbrev bufTy : (tb : Table) → Fin (tcTables nBuf tb) → BufTy
  | .hbm, ⟨i, _⟩ => hbmTy i
  | _, _ => ⟨S1024x48x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_call0_v0 : Ref sig .tc := ⟨.hbm, 54, rfl⟩
abbrev main_call0_v1 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_c_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_c_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_c_15 : Ref sig .tc := ⟨.hbm, 91, rfl⟩
abbrev main_v66 : Ref sig .tc := ⟨.hbm, 92, rfl⟩
abbrev main_v67 : Ref sig .tc := ⟨.hbm, 93, rfl⟩
abbrev main_c_16 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_call1_cst : Ref sig .tc := ⟨.hbm, 103, rfl⟩
abbrev main_call1_v0 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_c_19 : Ref sig .tc := ⟨.hbm, 115, rfl⟩
abbrev main_v84 : Ref sig .tc := ⟨.hbm, 116, rfl⟩
abbrev main_v85 : Ref sig .tc := ⟨.hbm, 117, rfl⟩
abbrev main_c_20 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_21 : Ref sig .tc := ⟨.hbm, 124, rfl⟩
abbrev main_v91 : Ref sig .tc := ⟨.hbm, 125, rfl⟩
abbrev main_v92 : Ref sig .tc := ⟨.hbm, 126, rfl⟩
abbrev main_cst_22 : Ref sig .tc := ⟨.hbm, 127, rfl⟩
abbrev main_v93 : Ref sig .tc := ⟨.hbm, 128, rfl⟩
abbrev main_v94 : Ref sig .tc := ⟨.hbm, 129, rfl⟩
abbrev main_cst_23 : Ref sig .tc := ⟨.hbm, 130, rfl⟩
abbrev main_call2_v0 : Ref sig .tc := ⟨.hbm, 131, rfl⟩
abbrev main_call2_v1 : Ref sig .tc := ⟨.hbm, 132, rfl⟩
abbrev main_v95 : Ref sig .tc := ⟨.hbm, 133, rfl⟩
abbrev main_c_24 : Ref sig .tc := ⟨.hbm, 134, rfl⟩
abbrev main_v96 : Ref sig .tc := ⟨.hbm, 135, rfl⟩
abbrev main_v97 : Ref sig .tc := ⟨.hbm, 136, rfl⟩
abbrev main_c_25 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_26 : Ref sig .tc := ⟨.hbm, 144, rfl⟩
abbrev main_v104 : Ref sig .tc := ⟨.hbm, 145, rfl⟩
abbrev main_v105 : Ref sig .tc := ⟨.hbm, 146, rfl⟩
abbrev main_c_27 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_c_28 : Ref sig .tc := ⟨.hbm, 154, rfl⟩
abbrev main_v112 : Ref sig .tc := ⟨.hbm, 155, rfl⟩
abbrev main_v113 : Ref sig .tc := ⟨.hbm, 156, rfl⟩
abbrev main_c_29 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_30 : Ref sig .tc := ⟨.hbm, 166, rfl⟩
abbrev main_v122 : Ref sig .tc := ⟨.hbm, 167, rfl⟩
abbrev main_c_31 : Ref sig .tc := ⟨.hbm, 168, rfl⟩
abbrev main_v123 : Ref sig .tc := ⟨.hbm, 169, rfl⟩
abbrev main_v124 : Ref sig .tc := ⟨.hbm, 170, rfl⟩
abbrev main_c_32 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩

abbrev nD : Nat := 1
abbrev τ : Topo := Topo.v7x

variable {F : FTy → Type} [FloatOps F]

class Facts₀ : Prop where
  shapeCasts_S1024x48x64_S49152x64 : S1024x48x64.ShapeCasts S49152x64
  bcast_S_S1024x48x48 : S_.BroadcastsInDim S1024x48x48 (![] : Fin 0 → Fin S1024x48x48.rank)
  bcast_S1024_S1024x48x48_0 : S1024.BroadcastsInDim S1024x48x48 (![0] : Fin 1 → Fin S1024x48x48.rank)
  bcast_S48_S1024x48x48_1 : S48.BroadcastsInDim S1024x48x48 (![1] : Fin 1 → Fin S1024x48x48.rank)
  bcast_S48_S1024x48x48_2 : S48.BroadcastsInDim S1024x48x48 (![2] : Fin 1 → Fin S1024x48x48.rank)
  shapeCasts_S1024x48x48_S2359296 : S1024x48x48.ShapeCasts S2359296
  bcast_S_S2359296 : S_.BroadcastsInDim S2359296 (![] : Fin 0 → Fin S2359296.rank)
  concatenates_S2359296_S49152_S2408448_d0 : Shape.Concatenates [S2359296, S49152] S2408448 0
  bcast_S_S49152 : S_.BroadcastsInDim S49152 (![] : Fin 0 → Fin S49152.rank)
  bcast_S_S2408448 : S_.BroadcastsInDim S2408448 (![] : Fin 0 → Fin S2408448.rank)
  bcast_S2408448_S2408448x1_0 : S2408448.BroadcastsInDim S2408448x1 (![0] : Fin 1 → Fin S2408448x1.rank)
  bcast_S2408448x1_S2408448x64_0_1 : S2408448x1.BroadcastsInDim S2408448x64 (![0, 1] : Fin 2 → Fin S2408448x64.rank)
  bcast_S_S49152x64 : S_.BroadcastsInDim S49152x64 (![] : Fin 0 → Fin S49152x64.rank)
  bcast_S64_S1x64_1 : S64.BroadcastsInDim S1x64 (![1] : Fin 1 → Fin S1x64.rank)
  bcast_S1x64_S49152x64_0_1 : S1x64.BroadcastsInDim S49152x64 (![0, 1] : Fin 2 → Fin S49152x64.rank)
  shapeCasts_S49152x64_S1024x48x64 : S49152x64.ShapeCasts S1024x48x64
  dot_S49152x64_S64x64_S49152x64_1_0_0_1_n_n_wf : DotDims.WF S49152x64 S64x64 S49152x64 [1] [0] [0] [1] [] []
  scatter_S49152_S2408448x1_S2408448_n_0_0_1_wf : ScatterDims.WF S49152 S2408448x1 S2408448 [] [0] [0] 1
  gather_S49152_S2408448x1_S2408448_n_0_n_n_0_1_1_wf : GatherDims.WF S49152 S2408448x1 S2408448 [] [0] [] [0] [] 1 ![1]
  gather_S49152x64_S2408448x1_S2408448x64_1_0_n_n_0_1_164_wf : GatherDims.WF S49152x64 S2408448x1 S2408448x64 [1] [0] [] [0] [] 1 ![1, 64]
  scatter_S49152x64_S2408448x1_S2408448x64_1_0_0_1_wf : ScatterDims.WF S49152x64 S2408448x1 S2408448x64 [1] [0] [0] 1

variable [Facts₀]

def dot_S49152x64_S64x64_S49152x64_1_0_0_1_n_n : DotDims S49152x64 S64x64 S49152x64 where
  lhsContracting := [1]
  rhsContracting := [0]
  lhsNonContracting := [0]
  rhsNonContracting := [1]
  lhsBatch := []
  rhsBatch := []
  wf := dot_S49152x64_S64x64_S49152x64_1_0_0_1_n_n_wf
def scatter_S49152_S2408448x1_S2408448_n_0_0_1 : ScatterDims S49152 S2408448x1 S2408448 where
  updateWindowDims := []
  insertedWindowDims := [0]
  scatterDimsToOperandDims := [0]
  indexVectorDim := 1
  wf := scatter_S49152_S2408448x1_S2408448_n_0_0_1_wf
def gather_S49152_S2408448x1_S2408448_n_0_n_n_0_1_1 : GatherDims S49152 S2408448x1 S2408448 where
  offsetDims := []
  collapsedSliceDims := [0]
  operandBatchingDims := []
  startIndicesBatchingDims := []
  startIndexMap := [0]
  indexVectorDim := 1
  sliceSizes := ![1]
  wf := gather_S49152_S2408448x1_S2408448_n_0_n_n_0_1_1_wf
def gather_S49152x64_S2408448x1_S2408448x64_1_0_n_n_0_1_164 : GatherDims S49152x64 S2408448x1 S2408448x64 where
  offsetDims := [1]
  collapsedSliceDims := [0]
  operandBatchingDims := []
  startIndicesBatchingDims := []
  startIndexMap := [0]
  indexVectorDim := 1
  sliceSizes := ![1, 64]
  wf := gather_S49152x64_S2408448x1_S2408448x64_1_0_n_n_0_1_164_wf
def scatter_S49152x64_S2408448x1_S2408448x64_1_0_0_1 : ScatterDims S49152x64 S2408448x1 S2408448x64 where
  updateWindowDims := [1]
  insertedWindowDims := [0]
  scatterDimsToOperandDims := [0]
  indexVectorDim := 1
  wf := scatter_S49152x64_S2408448x1_S2408448x64_1_0_0_1_wf

class Facts : Prop extends Facts₀ where

variable [Facts]
-- ==== Proof.Spec.lean ====
/-
  A two-layer graph convolution over 1024 independent graphs of 48 nodes, as one function of the argument arrays,
  entry by entry, on the extended reals.

  For graph g the adjacency indicator is a(i, j) = 1 where adjs(g, i, j) > 1/2 and 0 elsewhere (edge i → j). Node j
  has degree deg(j) = Σ_i a(i, j) + 1 (its in-edges and a self-loop) and scale factor s(j) = deg(j)^(-1/2). One layer
  sends node features Y to

      agg Y (j, k) = Σ_i ((a(i, j) + [i = j]) · s(i)) · s(j) · Y(i, k),

  the self-loop folded into the diagonal of the coefficient matrix. The network is

      hidden = max (agg (X · W1) + b1, 0),      out = agg (hidden · W2) + b2.

  The float literals 1/2, 1 and 0 are kept as the words the two programs print; only 1 and 0 are ever evaluated.
-/
import Idealize.ShloMosaic.PureOps.Ideal
import Idealize.ShloMosaic.Lib.ValueIdx

noncomputable section

open scoped BigOperators

namespace Cert.Gcn

open Idealize.ShloMosaic Idealize.ShloMosaic.ValueIdx

/-- The shapes of the arguments: node features, adjacency, a weight matrix, a bias. -/
abbrev SX : Shape := ⟨3, ![1024, 48, 64]⟩
abbrev SA : Shape := ⟨3, ![1024, 48, 48]⟩
abbrev SW : Shape := ⟨2, ![64, 64]⟩
abbrev SB : Shape := ⟨1, ![64]⟩

/-- The threshold 1/2, the unit weight 1 and the floor 0 of the rectifier, as the printed words. -/
abbrev half : EReal := Ideal.ofBits .f32 0x3F000000#32
abbrev one : EReal := Ideal.ofBits .f32 0x3F800000#32
abbrev zero : EReal := Ideal.ofBits .f32 0x00000000#32

/-- The adjacency indicator of edge i → j in graph g: the comparison bit read as a number. -/
def mask (A : SA.Idx → EReal) (g : Fin 1024) (i j : Fin 48) : EReal :=
  (((Ideal.cmp .ogt (A (ix3 g i j)) half).toNat : ℝ) : EReal)

/-- The degree of node j of graph g: its in-edges and its self-loop. -/
def deg (A : SA.Idx → EReal) (g : Fin 1024) (j : Fin 48) : EReal :=
  (∑ i : Fin 48, mask A g i j) + one

/-- The scale factor of node j: the inverse square root of its degree. -/
def dinv (A : SA.Idx → EReal) (g : Fin 1024) (j : Fin 48) : EReal :=
  Ideal.rsqrt (deg A g j)

/-- The diagonal indicator. -/
def eye (i j : Fin 48) : EReal := if i = j then 1 else 0

/-- The coefficient of source node i in the update of node j: the normalised adjacency with the self-loop on the
    diagonal. -/
def coef (A : SA.Idx → EReal) (g : Fin 1024) (i j : Fin 48) : EReal :=
  ((mask A g i j + eye i j) * dinv A g i) * dinv A g j

/-- One aggregation: node j of graph g collects its sources' features, column k. -/
def agg (A : SA.Idx → EReal) (Y : Fin 1024 → Fin 48 → Fin 64 → EReal) (g : Fin 1024) (j : Fin 48) (k : Fin 64) : EReal :=
  ∑ i : Fin 48, coef A g i j * Y g i k

/-- Node features times a weight matrix. -/
def lin (Y : Fin 1024 → Fin 48 → Fin 64 → EReal) (W : SW.Idx → EReal) (g : Fin 1024) (i : Fin 48) (l : Fin 64) : EReal :=
  ∑ d : Fin 64, Y g i d * W (ix2 d l)

/-- The hidden layer: aggregate X · W1, add the bias, rectify. -/
def hidden (X : SX.Idx → EReal) (A : SA.Idx → EReal) (W1 : SW.Idx → EReal) (b1 : SB.Idx → EReal)
    (g : Fin 1024) (j : Fin 48) (l : Fin 64) : EReal :=
  max (agg A (lin (fun g i d => X (ix3 g i d)) W1) g j l + b1 (ix1 l)) zero

/-- The network's output array. -/
def out (X : SX.Idx → EReal) (A : SA.Idx → EReal) (W1 : SW.Idx → EReal) (b1 : SB.Idx → EReal)
    (W2 : SW.Idx → EReal) (b2 : SB.Idx → EReal) : SX.Idx → EReal :=
  fun o => agg A (lin (hidden X A W1 b1) W2) (o 0) (o 1) (o 2) + b2 (ix1 (o 2))

/-- The indicator is a nonnegative real. -/
theorem mask_nonneg (A : SA.Idx → EReal) (g : Fin 1024) (i j : Fin 48) : 0 ≤ mask A g i j := by
  unfold mask
  exact EReal.coe_nonneg.mpr (Nat.cast_nonneg _)

/-- The printed word of 1 is the number 1. -/
theorem one_eq : one = 1 := by
  show Ideal.ofBits .f32 0x3F800000#32 = 1
  simp [Ideal.ofBits, Ideal.ieee]
  exact_mod_cast (by norm_num : (8388608 : ℝ) * ((2 : ℝ) ^ 23)⁻¹ = 1)

end Cert.Gcn

end
-- ==== Proof.LibAxisLayout.lean ====
/-
  Arrays of three axes re-laid, each operation read at an index given by its coordinates.

  * two leading axes merged or split: an [A,B,m] array viewed as [N,m] with N = A·B has, in row b·B+t and column j,
    the entry (b,t,j); and back;
  * a unit axis added or dropped: [N,m] ↔ [N,1,m] and [A,B] → [A,B,1];
  * a broadcast between arrays of three axes: each coordinate is kept, or is 0 where the operand's axis has extent one;
  * a sum along the last or the middle axis as a finite sum over that coordinate;
  * a concatenation along the last axis of arrays of three axes, and along the rows of matrices, read in a chosen piece.
-/
import Idealize.ShloMosaic.Lib.Pipeline.Value
import Idealize.ShloMosaic.Lib.ValueIdx
import Idealize.ShloMosaic.PureOps.Ideal.Laws

noncomputable section

open scoped BigOperators

namespace Idealize.ShloMosaic.AxisLayout

open Idealize.ShloMosaic Idealize.ShloMosaic.ValueIdx

variable {α : Type}

/-! ## Two leading axes merged or split -/

/-- An [A,B,m] array viewed as [N,m]: row `b·B+t`, column `j` is the entry (b,t,j). -/
theorem cast_merge_apply {A B N m : ℕ} (x : (⟨3, ![A, B, m]⟩ : Shape).Idx → α)
    (h : (⟨3, ![A, B, m]⟩ : Shape).ShapeCasts ⟨2, ![N, m]⟩) (b : Fin A) (t : Fin B) (j : Fin m) (r : Fin N)
    (hr : r.val = b.val * B + t.val) :
    shapeCast ⟨2, ![N, m]⟩ x h (ix2 r j) = x (ix3 b t j) :=
  shapeCast_apply x h _ _ (by
    rw [Shape.rowMajor_val_three, Shape.rowMajor_val_two]
    show (b.val * B + t.val) * m + j.val = r.val * m + j.val
    rw [hr])

/-- An [N,m] array viewed as [A,B,m]: the entry (b,t,j) is row `b·B+t`, column `j`. -/
theorem cast_split_apply {A B N m : ℕ} (x : (⟨2, ![N, m]⟩ : Shape).Idx → α)
    (h : (⟨2, ![N, m]⟩ : Shape).ShapeCasts ⟨3, ![A, B, m]⟩) (b : Fin A) (t : Fin B) (j : Fin m) (r : Fin N)
    (hr : r.val = b.val * B + t.val) :
    shapeCast ⟨3, ![A, B, m]⟩ x h (ix3 b t j) = x (ix2 r j) :=
  shapeCast_apply x h _ _ (by
    rw [Shape.rowMajor_val_three, Shape.rowMajor_val_two]
    show r.val * m + j.val = (b.val * B + t.val) * m + j.val
    rw [hr])

/-! ## A unit axis added or dropped -/

/-- An [N,m] array viewed as [N,1,m]. -/
theorem cast_addMid_apply {N m : ℕ} (x : (⟨2, ![N, m]⟩ : Shape).Idx → α)
    (h : (⟨2, ![N, m]⟩ : Shape).ShapeCasts ⟨3, ![N, 1, m]⟩) (r : Fin N) (z : Fin 1) (j : Fin m) :
    shapeCast ⟨3, ![N, 1, m]⟩ x h (ix3 r z j) = x (ix2 r j) :=
  shapeCast_apply x h _ _ (by
    rw [Shape.rowMajor_val_three, Shape.rowMajor_val_two]
    show r.val * m + j.val = (r.val * 1 + z.val) * m + j.val
    have hz : z.val = 0 := by omega
    rw [hz, Nat.mul_one, Nat.add_zero])

/-- An [N,1,m] array viewed as [N,m]. -/
theorem cast_dropMid_apply {N m : ℕ} (x : (⟨3, ![N, 1, m]⟩ : Shape).Idx → α)
    (h : (⟨3, ![N, 1, m]⟩ : Shape).ShapeCasts ⟨2, ![N, m]⟩) (r : Fin N) (z : Fin 1) (j : Fin m) :
    shapeCast ⟨2, ![N, m]⟩ x h (ix2 r j) = x (ix3 r z j) :=
  shapeCast_apply x h _ _ (by
    rw [Shape.rowMajor_val_three, Shape.rowMajor_val_two]
    show (r.val * 1 + z.val) * m + j.val = r.val * m + j.val
    have hz : z.val = 0 := by omega
    rw [hz, Nat.mul_one, Nat.add_zero])

/-- An [A,B] array viewed as [A,B,1]. -/
theorem cast_addLast_apply {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) :=
  shapeCast_apply x h _ _ (by
    rw [Shape.rowMajor_val_three, Shape.rowMajor_val_two]
    show a.val * B + b.val = (a.val * B + b.val) * 1 + z.val
    have hz : z.val = 0 := by omega
    rw [hz, Nat.mul_one, Nat.add_zero])

/-! ## A broadcast between arrays of three axes -/

/-- A broadcast of an [a0,a1,a2] array to [b0,b1,b2], read at (j0,j1,j2): the operand at the coordinates that are
    `j`'s where the operand's axis is not of extent one, and 0 where it is. -/
theorem bcast3_apply {a0 a1 a2 b0 b1 b2 : ℕ} (x : (⟨3, ![a0, a1, a2]⟩ : Shape).Idx → α)
    (h : (⟨3, ![a0, a1, a2]⟩ : Shape).Broadcasts ⟨3, ![b0, b1, b2]⟩)
    (j0 : Fin b0) (j1 : Fin b1) (j2 : Fin b2) (k0 : Fin a0) (k1 : Fin a1) (k2 : Fin a2)
    (h0 : k0.val = if a0 = 1 then 0 else j0.val) (h1 : k1.val = if a1 = 1 then 0 else j1.val)
    (h2 : k2.val = if a2 = 1 then 0 else j2.val) :
    broadcastTo ⟨3, ![b0, b1, b2]⟩ x h (ix3 j0 j1 j2) = x (ix3 k0 k1 k2) :=
  broadcastTo_apply x h _ _ (fun a => by
    match a with
    | ⟨0, _⟩ => exact h0
    | ⟨1, _⟩ => exact h1
    | ⟨2, _⟩ => exact h2)

/-! ## A sum along one axis -/

/-- The reduced index (a,b) with the last coordinate `k` put back is (a,b,k). -/
theorem lift_last {A B m : ℕ} (h : (⟨3, ![A, B, m]⟩ : Shape).Reduces [2] (⟨2, ![A, B]⟩ : Shape)) (a : Fin A) (b : Fin B)
    (k : Fin ((⟨3, ![A, B, m]⟩ : Shape).size 2)) : h.lift (ix2 a b) k = ix3 a b (⟨k.val, k.isLt⟩ : Fin m) := by
  funext c; apply Fin.ext
  fin_cases c <;> rfl

/-- The reduced index (a,e) with the middle coordinate `k` put back is (a,k,e). -/
theorem lift_mid {A B m : ℕ} (h : (⟨3, ![A, B, m]⟩ : Shape).Reduces [1] (⟨2, ![A, m]⟩ : Shape)) (a : Fin A) (e : Fin m)
    (k : Fin ((⟨3, ![A, B, m]⟩ : Shape).size 1)) : h.lift (ix2 a e) k = ix3 a (⟨k.val, k.isLt⟩ : Fin B) e := by
  funext c; apply Fin.ext
  fin_cases c <;> rfl

/-- A sum along the last axis of an [A,B,m] array, at (a,b): the sum over `k` of the entries (a,b,k). -/
theorem sum_last_apply {A B m : ℕ} {φ : FTy} (x : FVec Ideal (⟨3, ![A, B, m]⟩ : Shape) φ) (acc : BitVec φ.bits)
    (h : (⟨3, ![A, B, m]⟩ : Shape).Reduces [2] (⟨2, ![A, B]⟩ : Shape)) (hφ : FKind.Formats φ) (hacc : acc = FKind.add.neutral φ hφ)
    (a : Fin A) (b : Fin B) :
    multiReduction .add [2] (⟨2, ![A, B]⟩ : Shape) x acc h hφ hacc (ix2 a b) = ∑ k : Fin m, (x (ix3 a b k) : EReal) :=
  (Ideal.multiReduction_add_single x acc h hφ hacc (ix2 a b)).trans
    (Finset.sum_congr rfl fun k _ => congrArg x (lift_last h a b k))

/-- A sum along the middle axis of an [A,B,m] array, at (a,e): the sum over `k` of the entries (a,k,e). -/
theorem sum_mid_apply {A B m : ℕ} {φ : FTy} (x : FVec Ideal (⟨3, ![A, B, m]⟩ : Shape) φ) (acc : BitVec φ.bits)
    (h : (⟨3, ![A, B, m]⟩ : Shape).Reduces [1] (⟨2, ![A, m]⟩ : Shape)) (hφ : FKind.Formats φ) (hacc : acc = FKind.add.neutral φ hφ)
    (a : Fin A) (e : Fin m) :
    multiReduction .add [1] (⟨2, ![A, m]⟩ : Shape) x acc h hφ hacc (ix2 a e) = ∑ k : Fin B, (x (ix3 a k e) : EReal) :=
  (Ideal.multiReduction_add_single x acc h hφ hacc (ix2 a e)).trans
    (Finset.sum_congr rfl fun k _ => congrArg x (lift_mid h a e k))

/-- The sum along the last axis as a kernel prints it for f32: the accumulator the literal zero pattern, its side
    condition the plain equation of two literals. -/
theorem sum_last_zero {A B m : ℕ} (x : FVec Ideal (⟨3, ![A, B, m]⟩ : Shape) .f32)
    (h : (⟨3, ![A, B, m]⟩ : Shape).Reduces [2] (⟨2, ![A, B]⟩ : Shape)) (hφ : FKind.Formats .f32)
    (hacc : (0x00000000#32 : BitVec 32) = 0x00000000#32) (a : Fin A) (b : Fin B) :
    multiReduction .add [2] (⟨2, ![A, B]⟩ : Shape) x 0x00000000#32 h hφ hacc (ix2 a b) = ∑ k : Fin m, (x (ix3 a b k) : EReal) :=
  sum_last_apply x 0x00000000#32 h hφ hacc a b

/-- The sum along the middle axis as a kernel prints it for f32. -/
theorem sum_mid_zero {A B m : ℕ} (x : FVec Ideal (⟨3, ![A, B, m]⟩ : Shape) .f32)
    (h : (⟨3, ![A, B, m]⟩ : Shape).Reduces [1] (⟨2, ![A, m]⟩ : Shape)) (hφ : FKind.Formats .f32)
    (hacc : (0x00000000#32 : BitVec 32) = 0x00000000#32) (a : Fin A) (e : Fin m) :
    multiReduction .add [1] (⟨2, ![A, m]⟩ : Shape) x 0x00000000#32 h hφ hacc (ix2 a e) = ∑ k : Fin B, (x (ix3 a k e) : EReal) :=
  sum_mid_apply x 0x00000000#32 h hφ hacc a e

/-! ## A concatenation read in a chosen piece -/

/-- A concatenation of arrays of three axes along the LAST axis, read at (a,b,r) with `r` in piece `k`: that piece
    at (a,b,j), where `j` is `r` less the extents `pre` of the pieces before it. -/
theorem concat_last_piece {A B M : ℕ} (xs : List ((s : Shape) × (s.Idx → α)))
    (h : Shape.Concatenates (xs.map (·.1)) (⟨3, ![A, B, M]⟩ : Shape) 2)
    (k : ℕ) (hk : k < xs.length) {m₁ : ℕ} (x₁ : (⟨3, ![A, B, m₁]⟩ : Shape).Idx → α)
    (hxk : xs[k] = ⟨(⟨3, ![A, B, m₁]⟩ : Shape), x₁⟩) (pre : ℕ)
    (hpre : (((xs.take k).map (·.1)).map fun s : Shape =>
      if h : s.rank = (⟨3, ![A, B, M]⟩ : Shape).rank then s.size ((2 : Fin (⟨3, ![A, B, M]⟩ : Shape).rank).cast h.symm) else 0).sum = pre)
    (a : Fin A) (b : Fin B) (j : Fin m₁) (r : Fin M) (hr : pre + j.val = r.val) :
    concatenate (⟨3, ![A, B, M]⟩ : Shape) 2 xs h (ix3 a b r) = x₁ (ix3 a b j) :=
  concatenate_apply_piece 2 xs h (ix3 a b r) k hk _ x₁ hxk rfl pre hpre (ix3 a b j)
    (fun c hc => by
      match c with
      | ⟨0, _⟩ => rfl
      | ⟨1, _⟩ => rfl
      | ⟨2, _⟩ => exact absurd rfl hc)
    hr

/-- A concatenation of matrices along the ROWS, read at (r,c) with `r` in piece `k`: that piece at (j,c). -/
theorem concat_rows_piece {M N : ℕ} (xs : List ((s : Shape) × (s.Idx → α)))
    (h : Shape.Concatenates (xs.map (·.1)) (⟨2, ![M, N]⟩ : Shape) 0)
    (k : ℕ) (hk : k < xs.length) {m₁ : ℕ} (x₁ : (⟨2, ![m₁, N]⟩ : Shape).Idx → α)
    (hxk : xs[k] = ⟨(⟨2, ![m₁, N]⟩ : Shape), x₁⟩) (pre : ℕ)
    (hpre : (((xs.take k).map (·.1)).map fun s : Shape =>
      if h : s.rank = (⟨2, ![M, N]⟩ : Shape).rank then s.size ((0 : Fin (⟨2, ![M, N]⟩ : Shape).rank).cast h.symm) else 0).sum = pre)
    (j : Fin m₁) (c : Fin N) (r : Fin M) (hr : pre + j.val = r.val) :
    concatenate (⟨2, ![M, N]⟩ : Shape) 0 xs h (ix2 r c) = x₁ (ix2 j c) :=
  concatenate_apply_piece 0 xs h (ix2 r c) k hk _ x₁ hxk rfl pre hpre (ix2 j c)
    (fun d hd => by
      match d with
      | ⟨0, _⟩ => exact absurd rfl hd
      | ⟨1, _⟩ => rfl)
    hr

end Idealize.ShloMosaic.AxisLayout

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.KernelEntryDots.lean ====
/-
  The two matrix products of the graph convolution, read at an index on the extended reals.

  The feature product is a plain [12288, 64] x [64, 64] product: entry (r, c) is the sum over d of left (r, d) times
  right (d, c). The aggregation is a batched product that contracts the MIDDLE axis of both operands: for operands
  [B, K, M] and [B, K, N] the result [B, M, N] has, at (b, p, c), the sum over k of left (b, k, p) times right (b, k, c);
  the batch coordinate is shared and nothing crosses between batches. Both are reindexings of the contraction's sum:
  a one-axis contraction index is its one coordinate.
-/
import Idealize.ShloMosaic.PureOps.Ideal.Laws
import Idealize.ShloMosaic.Lib.ValueIdx
import proofs.«134418_g103079215284_cont_sun_m_88_9_alg».proof.Proof.Gen.KernelIdeal
import proofs.«134418_g103079215284_cont_sun_m_88_9_alg».proof.Proof.LibDotIx2

noncomputable section

open scoped BigOperators

namespace Cert.KernelIdeal.GcnValue

open Idealize.ShloMosaic Idealize.ShloMosaic.ValueIdx Cert.KernelIdeal Cert.KernelIdeal.Gen

/-- The dimension numbers "batch axis 0 with 0, axis 1 against axis 1", said of the operand indices: at result index
    j and contraction index q the left operand is read at (j 0, q, j 1) and the right at (j 0, q, j 2); the contraction
    is one axis of extent K. -/
structure MidContraction {B K M N : ℕ} (d : DotDims ⟨3, ![B, K, M]⟩ ⟨3, ![B, K, N]⟩ ⟨3, ![B, M, N]⟩) : Prop where
  rank : d.contr.rank = 1
  size : d.contr.size ⟨0, by omega⟩ = K
  l0 : ∀ (j : (⟨3, ![B, M, N]⟩ : Shape).Idx) (q : d.contr.Idx), (d.lhsIdx j q 0).val = (j 0).val
  l1 : ∀ (j : (⟨3, ![B, M, N]⟩ : Shape).Idx) (q : d.contr.Idx), (d.lhsIdx j q 1).val = (q ⟨0, by omega⟩).val
  l2 : ∀ (j : (⟨3, ![B, M, N]⟩ : Shape).Idx) (q : d.contr.Idx), (d.lhsIdx j q 2).val = (j 1).val
  r0 : ∀ (j : (⟨3, ![B, M, N]⟩ : Shape).Idx) (q : d.contr.Idx), (d.rhsIdx j q 0).val = (j 0).val
  r1 : ∀ (j : (⟨3, ![B, M, N]⟩ : Shape).Idx) (q : d.contr.Idx), (d.rhsIdx j q 1).val = (q ⟨0, by omega⟩).val
  r2 : ∀ (j : (⟨3, ![B, M, N]⟩ : Shape).Idx) (q : d.contr.Idx), (d.rhsIdx j q 2).val = (j 2).val

/-- The contraction's sum reindexed by the contracted coordinate: at (b, p, c) the products are
    left (b, k, p) times right (b, k, c). -/
theorem MidContraction.sum_contr {B K M N : ℕ} {d : DotDims ⟨3, ![B, K, M]⟩ ⟨3, ![B, K, N]⟩ ⟨3, ![B, M, N]⟩}
    (h : MidContraction d) (l : (⟨3, ![B, K, M]⟩ : Shape).Idx → EReal) (r : (⟨3, ![B, K, N]⟩ : Shape).Idx → EReal)
    (b : Fin B) (p : Fin M) (c : Fin N) :
    ∑ q : d.contr.Idx, l (d.lhsIdx (ix3 b p c) q) * r (d.rhsIdx (ix3 b p c) q)
      = ∑ k : Fin K, l (ix3 b k p) * r (ix3 b k c) := by
  rw [← Equiv.sum_comp (contrEquiv1 d K h.rank h.size).symm]
  refine Finset.sum_congr rfl fun k _ => ?_
  have hk := contrEquiv1_symm_val d K h.rank h.size k
  have el : d.lhsIdx (ix3 b p c) ((contrEquiv1 d K h.rank h.size).symm k) = ix3 b k p :=
    funext fun a => Fin.ext (by
      match a with
      | ⟨0, _⟩ => exact h.l0 _ _
      | ⟨1, _⟩ => exact (h.l1 _ _).trans hk
      | ⟨2, _⟩ => exact h.l2 _ _)
  have er : d.rhsIdx (ix3 b p c) ((contrEquiv1 d K h.rank h.size).symm k) = ix3 b k c :=
    funext fun a => Fin.ext (by
      match a with
      | ⟨0, _⟩ => exact h.r0 _ _
      | ⟨1, _⟩ => exact (h.r1 _ _).trans hk
      | ⟨2, _⟩ => exact h.r2 _ _)
  rw [el, er]

/-- The matrix unit's batched product into a zero accumulator, at (b, p, c): the sum over k of
    left (b, k, p) times right (b, k, c). -/
theorem MidContraction.matmul_zero {B K M N : ℕ} {φ₁ φ₂ : FTy} {d : DotDims ⟨3, ![B, K, M]⟩ ⟨3, ![B, K, N]⟩ ⟨3, ![B, M, N]⟩}
    (h : MidContraction d) (prec : Option ContractPrecision)
    (l : FVec Ideal ⟨3, ![B, K, M]⟩ φ₁) (r : FVec Ideal ⟨3, ![B, K, N]⟩ φ₂) (b : Fin B) (p : Fin M) (c : Fin N) :
    matmul d prec l r (constant (F := Ideal) ⟨3, ![B, M, N]⟩ .f32 0x00000000#32) (ix3 b p c)
      = ∑ k : Fin K, (l (ix3 b k p) : EReal) * (r (ix3 b k c) : EReal) :=
  (Ideal.matmul_constant_zero_apply d prec l r (ix3 b p c)).trans (h.sum_contr l r b p c)

/-- The feature product's dimension numbers are those of a plain product. -/
theorem featureDot_plain : PlainDot dot_S12288x64_S64x64_S12288x64_1_0_0_1_n_n where
  rank := rfl
  size := rfl
  l0 := fun j q => by
    unfold DotDims.lhsIdx
    rw [dif_neg (show ¬(0 : Fin S12288x64.rank) ∈ dot_S12288x64_S64x64_S12288x64_1_0_0_1_n_n.lhsBatch by decide),
      dif_pos (show (0 : Fin S12288x64.rank) ∈ dot_S12288x64_S64x64_S12288x64_1_0_0_1_n_n.lhsNonContracting by decide)]
    rfl
  l1 := fun j q => dot_S12288x64_S64x64_S12288x64_1_0_0_1_n_n.lhsIdx_val_of_single rfl j q
  r0 := fun j q => dot_S12288x64_S64x64_S12288x64_1_0_0_1_n_n.rhsIdx_val_of_single rfl j q
  r1 := fun j q => by
    unfold DotDims.rhsIdx
    rw [dif_neg (show ¬(1 : Fin S64x64.rank) ∈ dot_S12288x64_S64x64_S12288x64_1_0_0_1_n_n.rhsBatch by decide),
      dif_pos (show (1 : Fin S64x64.rank) ∈ dot_S12288x64_S64x64_S12288x64_1_0_0_1_n_n.rhsNonContracting by decide)]
    rfl

/-- The aggregation's dimension numbers batch axis 0 and contract the middle axis of both operands. -/
theorem aggDot_mid : MidContraction dot_S256x48x48_S256x48x64_S256x48x64_1_1_2_2_0_0 where
  rank := rfl
  size := rfl
  l0 := fun j q => by
    unfold DotDims.lhsIdx
    rw [dif_pos (show (0 : Fin S256x48x48.rank) ∈ dot_S256x48x48_S256x48x64_S256x48x64_1_1_2_2_0_0.lhsBatch by decide)]
    rfl
  l1 := fun j q => dot_S256x48x48_S256x48x64_S256x48x64_1_1_2_2_0_0.lhsIdx_val_of_single rfl j q
  l2 := fun j q => by
    unfold DotDims.lhsIdx
    rw [dif_neg (show ¬(2 : Fin S256x48x48.rank) ∈ dot_S256x48x48_S256x48x64_S256x48x64_1_1_2_2_0_0.lhsBatch by decide),
      dif_pos (show (2 : Fin S256x48x48.rank) ∈ dot_S256x48x48_S256x48x64_S256x48x64_1_1_2_2_0_0.lhsNonContracting by decide)]
    rfl
  r0 := fun j q => by
    unfold DotDims.rhsIdx
    rw [dif_pos (show (0 : Fin S256x48x64.rank) ∈ dot_S256x48x48_S256x48x64_S256x48x64_1_1_2_2_0_0.rhsBatch by decide)]
    rfl
  r1 := fun j q => dot_S256x48x48_S256x48x64_S256x48x64_1_1_2_2_0_0.rhsIdx_val_of_single rfl j q
  r2 := fun j q => by
    unfold DotDims.rhsIdx
    rw [dif_neg (show ¬(2 : Fin S256x48x64.rank) ∈ dot_S256x48x48_S256x48x64_S256x48x64_1_1_2_2_0_0.rhsBatch by decide),
      dif_pos (show (2 : Fin S256x48x64.rank) ∈ dot_S256x48x48_S256x48x64_S256x48x64_1_1_2_2_0_0.rhsNonContracting by decide)]
    rfl

end Cert.KernelIdeal.GcnValue

end
-- ==== Proof.KernelEntryBits.lean ====
/-
  Two facts about one-bit words, used where a comparison's result is turned into a number.

  A comparison yields one bit. Widened to 32 bits and read as a signed integer, the bit is the natural number 0 or 1
  it already was. The diagonal indicator of a 48 x 48 grid is such a bit: row number equals column number, the numbers
  compared as 32-bit words, which for numbers below 48 is the comparison of the numbers themselves.
-/
import Idealize.ShloMosaic.PureOps.Ideal
import Idealize.ShloMosaic.Lib.ValueIdx

namespace Cert.KernelIdeal.GcnValue

open Idealize.ShloMosaic

/-- A one-bit word widened to 32 bits and read as a signed integer is the bit as a natural number. -/
theorem bit_setWidth_toInt (b : BitVec 1) : (b.setWidth 32).toInt = (b.toNat : ℤ) := by
  rcases BitVec.eq_zero_or_eq_one b with h | h <;> subst h <;> decide

/-- Numbers below 48 are equal as 32-bit words exactly when they are equal. -/
theorem ofNat32_eq_iff {a b : ℕ} (ha : a < 48) (hb : b < 48) : BitVec.ofNat 32 a = BitVec.ofNat 32 b ↔ a = b := by
  constructor
  · intro h
    have h' := congrArg BitVec.toNat h
    simp only [BitVec.toNat_ofNat] at h'
    omega
  · rintro rfl; rfl

/-- The diagonal bit: row number plus zero against column number, as words. -/
theorem diag_bit (i j : Fin 48) :
    IntOp.cmpi .eq (IntOp.addi (BitVec.ofNat 32 i.val) 0#32) (BitVec.ofNat 32 j.val) = if i = j then 1#1 else 0#1 := by
  unfold IntOp.cmpi IntOp.addi
  rw [BitVec.add_zero]
  by_cases h : i = j
  · subst h; simp
  · have hne : ¬ BitVec.ofNat 32 i.val = BitVec.ofNat 32 j.val := fun e =>
      h (Fin.ext ((ofNat32_eq_iff i.isLt j.isLt).mp e))
    rw [if_neg h, beq_eq_false_iff_ne.mpr hne]; rfl

/-- The diagonal bit as an extended real: 1 on the diagonal, 0 off it. -/
theorem diag_value (i j : Fin 48) :
    ((((if i = j then 1#1 else 0#1 : BitVec 1).setWidth 32).toInt : ℝ) : EReal) = if i = j then 1 else 0 := by
  by_cases h : i = j
  · rw [if_pos h, if_pos h, bit_setWidth_toInt]; simp
  · rw [if_neg h, if_neg h, bit_setWidth_toInt]; simp

end Cert.KernelIdeal.GcnValue
-- ==== Proof.KernelEntryCoef.lean ====
/-
  The coefficient block of the graph convolution, read at an index.

  From a block of 256 adjacency matrices the kernel forms, for graph g, source node i and target node j,

      ((a(i, j) + [i = j]) · s(i)) · s(j),

  where a(i, j) is the indicator of adjs(g, i, j) > 1/2 read as a number, s(n) = (Σ_i a(i, n) + 1)^(-1/2) is the
  inverse square root of node n's in-degree counted with its self-loop, and [i = j] is the diagonal indicator. When
  graph g of the block is graph G of the whole adjacency array, this is the specification's coefficient of source i
  in the update of node j of graph G. The steps: the indicator entry; the diagonal entry; the degree as a finite sum
  along the source axis; and the three layout operations (a leading unit axis for the diagonal, a trailing and a middle
  unit axis for the two scale factors) each read at the index given by its coordinates.
-/
import Idealize.ShloMosaic.PureOps.Ideal.Laws
import Idealize.ShloMosaic.Lib.ValueIdx
import Idealize.ShloMosaic.Lib.ValueLayout
import Idealize.ShloMosaic.Lib.Pipeline.Value
import proofs.«134418_g103079215284_cont_sun_m_88_9_alg».proof.Proof.Gen.KernelIdeal.Skeleton
import proofs.«134418_g103079215284_cont_sun_m_88_9_alg».proof.Proof.Spec
import proofs.«134418_g103079215284_cont_sun_m_88_9_alg».proof.Proof.LibAxisLayout
import proofs.«134418_g103079215284_cont_sun_m_88_9_alg».proof.Proof.KernelEntryBits

noncomputable section

open scoped BigOperators

namespace Cert.KernelIdeal.GcnValue

open Idealize.ShloMosaic Idealize.ShloMosaic.ValueIdx Idealize.ShloMosaic.AxisLayout Cert.KernelIdeal Cert.KernelIdeal.Gen

/-- The adjacency indicator of a block of 256 graphs, as numbers. -/
def indVec (x1 : Vec Ideal S256x48x48 .f32) : FVec Ideal S256x48x48 .f32 :=
  sitofp (F := Ideal) .f32 (extui 32 (cmpf (F := Ideal) .ogt x1 (broadcast S256x48x48 (Scalar.ofBits (F := Ideal) .f32 0x3F000000#32))) natLt_1_32)

/-- The scale factors of a block: the inverse square roots of the degrees, indexed by graph and node. -/
def dinvVec (x1 : Vec Ideal S256x48x48 .f32) : FVec Ideal S256x48 .f32 :=
  rsqrt (F := Ideal) (addf (F := Ideal) (multiReduction (F := Ideal) .add [1] S256x48 (indVec x1) 0x00000000#32 reduces_S256x48x48_S256x48 (.inl rfl) rfl)
    (broadcast S256x48 (Scalar.ofBits (F := Ideal) .f32 0x3F800000#32)))

/-- The diagonal indicator of the 48 x 48 grid, as numbers. -/
def eyeVec : FVec Ideal S48x48 .f32 :=
  sitofp (F := Ideal) .f32 (extui 32 (cmpi .eq (addi (iota .tc S48x48 32 [0] iota_S48x48_d0_w32) (broadcast S48x48 0#32))
    (iota .tc S48x48 32 [1] iota_S48x48_d1_w32)) natLt_1_32)

/-- The body's coefficient block is the product of the indicator plus the diagonal with the two broadcast scale
    factors. -/
theorem pay2_eq (x1 : Vec Ideal S256x48x48 .f32) :
    k0_pay2 x1 = mulf (F := Ideal) (mulf (F := Ideal) (addf (F := Ideal) (indVec x1)
        (broadcastTo S256x48x48 (shapeCast S1x48x48 eyeVec shapeCasts_S48x48_S1x48x48) broadcasts_S1x48x48_S256x48x48))
        (broadcastTo S256x48x48 (shapeCast S256x48x1 (dinvVec x1) shapeCasts_S256x48_S256x48x1) broadcasts_S256x48x1_S256x48x48))
      (broadcastTo S256x48x48 (shapeCast S256x1x48 (dinvVec x1) shapeCasts_S256x48_S256x1x48) broadcasts_S256x1x48_S256x48x48) :=
  rfl

/-- The indicator entry: the comparison bit of the block's entry, which is the whole array's entry of graph G. -/
theorem indVec_apply (x1 : Vec Ideal S256x48x48 .f32) (A : Cert.Gcn.SA.Idx → EReal) (G : Fin 1024) (g : Fin 256)
    (i j : Fin 48) (hx : x1 (ix3 g i j) = A (ix3 G i j)) :
    indVec x1 (ix3 g i j) = Cert.Gcn.mask A G i j := by
  show ((((Ideal.cmp .ogt (x1 (ix3 g i j)) (Ideal.ofBits .f32 0x3F000000#32)).setWidth 32).toInt : ℝ) : EReal) = _
  rw [hx, bit_setWidth_toInt]
  unfold Cert.Gcn.mask
  rw [Int.cast_natCast]

/-- The diagonal entry. -/
theorem eyeVec_apply (i j : Fin 48) : eyeVec (ix2 i j) = Cert.Gcn.eye i j := by
  show ((((IntOp.cmpi .eq (IntOp.addi (iota .tc S48x48 32 [0] iota_S48x48_d0_w32 (ix2 i j)) 0#32)
    (iota .tc S48x48 32 [1] iota_S48x48_d1_w32 (ix2 i j))).setWidth 32).toInt : ℝ) : EReal) = _
  rw [iota_single_apply, iota_single_apply]
  show ((((IntOp.cmpi .eq (IntOp.addi (BitVec.ofNat 32 i.val) 0#32) (BitVec.ofNat 32 j.val)).setWidth 32).toInt : ℝ) : EReal) = _
  rw [diag_bit, diag_value]
  rfl

/-- The scale factor of node n of the block's graph g is that of node n of graph G. -/
theorem dinvVec_apply (x1 : Vec Ideal S256x48x48 .f32) (A : Cert.Gcn.SA.Idx → EReal) (G : Fin 1024) (g : Fin 256)
    (hx : ∀ i j : Fin 48, x1 (ix3 g i j) = A (ix3 G i j)) (n : Fin 48) :
    dinvVec x1 (ix2 g n) = Cert.Gcn.dinv A G n := by
  show Ideal.rsqrt (multiReduction (F := Ideal) .add [1] S256x48 (indVec x1) 0x00000000#32 reduces_S256x48x48_S256x48 (.inl rfl) rfl (ix2 g n)
      + Ideal.ofBits .f32 0x3F800000#32) = Ideal.rsqrt ((∑ i : Fin 48, Cert.Gcn.mask A G i n) + Cert.Gcn.one)
  refine congrArg Ideal.rsqrt (congrArg (· + Ideal.ofBits .f32 0x3F800000#32) ?_)
  exact (sum_mid_zero (indVec x1) reduces_S256x48x48_S256x48 (.inl rfl) rfl g n).trans
    (Finset.sum_congr rfl fun k _ => indVec_apply x1 A G g k n (hx k n))

/-- THE COEFFICIENT ENTRY: at graph g of the block, source i, target j, the body's coefficient block holds the
    specification's coefficient for graph G of the whole array. -/
theorem pay2_apply (x1 : Vec Ideal S256x48x48 .f32) (A : Cert.Gcn.SA.Idx → EReal) (G : Fin 1024) (g : Fin 256)
    (hx : ∀ i j : Fin 48, x1 (ix3 g i j) = A (ix3 G i j)) (i j : Fin 48) :
    k0_pay2 x1 (ix3 g i j) = Cert.Gcn.coef A G i j := by
  have e18 : broadcastTo S256x48x48 (shapeCast S1x48x48 eyeVec shapeCasts_S48x48_S1x48x48) broadcasts_S1x48x48_S256x48x48 (ix3 g i j)
      = Cert.Gcn.eye i j :=
    (bcast3_apply _ broadcasts_S1x48x48_S256x48x48 g i j (0 : Fin 1) i j rfl rfl rfl).trans
      ((shapeCast_ab_1ab_apply eyeVec shapeCasts_S48x48_S1x48x48 0 i j).trans (eyeVec_apply i j))
  have e21 : broadcastTo S256x48x48 (shapeCast S256x48x1 (dinvVec x1) shapeCasts_S256x48_S256x48x1) broadcasts_S256x48x1_S256x48x48 (ix3 g i j)
      = Cert.Gcn.dinv A G i :=
    (bcast3_apply _ broadcasts_S256x48x1_S256x48x48 g i j g i (0 : Fin 1) rfl rfl rfl).trans
      ((cast_addLast_apply (dinvVec x1) shapeCasts_S256x48_S256x48x1 g i 0).trans (dinvVec_apply x1 A G g hx i))
  have e24 : broadcastTo S256x48x48 (shapeCast S256x1x48 (dinvVec x1) shapeCasts_S256x48_S256x1x48) broadcasts_S256x1x48_S256x48x48 (ix3 g i j)
      = Cert.Gcn.dinv A G j :=
    (bcast3_apply _ broadcasts_S256x1x48_S256x48x48 g i j g (0 : Fin 1) j rfl rfl rfl).trans
      ((cast_addMid_apply (dinvVec x1) shapeCasts_S256x48_S256x1x48 g 0 j).trans (dinvVec_apply x1 A G g hx j))
  rw [pay2_eq]
  show ((indVec x1 (ix3 g i j) + _) * _) * _ = _
  rw [e18, e21, e24, indVec_apply x1 A G g i j (hx i j)]
  rfl

end Cert.KernelIdeal.GcnValue

end
-- ==== Proof.KernelEntryLayer.lean ====
/-
  The two layers of the graph convolution as the kernel's body computes them on a block of 256 graphs, read at an
  index.

  Both layers have one shape. Node features H, laid out with one row per (graph, node) pair — row 48·g + i for node
  i of graph g —, are multiplied by a 64 x 64 weight matrix; the product is viewed per graph again and aggregated
  with the coefficient block C, contracting the source node: the entry at graph g, node j, column k is

      Σ_i C(g, i, j) · Σ_d H(48·g + i, d) · W(d, k)   +   bias(k).

  The first layer takes the block of node features as H, and rectifies; the second takes the rectified first layer.
  With the coefficient block read as the specification's coefficients (graph g of the block being graph G of the whole
  arrays) the first is the specification's hidden layer and the second its output, entry by entry.
-/
import Idealize.ShloMosaic.PureOps.Ideal.Laws
import Idealize.ShloMosaic.Lib.ValueIdx
import Idealize.ShloMosaic.Lib.Pipeline.Value
import proofs.«134418_g103079215284_cont_sun_m_88_9_alg».proof.Proof.Gen.KernelIdeal.Skeleton
import proofs.«134418_g103079215284_cont_sun_m_88_9_alg».proof.Proof.Spec
import proofs.«134418_g103079215284_cont_sun_m_88_9_alg».proof.Proof.LibAxisLayout
import proofs.«134418_g103079215284_cont_sun_m_88_9_alg».proof.Proof.LibDotIx2
import proofs.«134418_g103079215284_cont_sun_m_88_9_alg».proof.Proof.KernelEntryDots
import proofs.«134418_g103079215284_cont_sun_m_88_9_alg».proof.Proof.KernelEntryCoef

noncomputable section

open scoped BigOperators

namespace Cert.KernelIdeal.GcnValue

open Idealize.ShloMosaic Idealize.ShloMosaic.ValueIdx Idealize.ShloMosaic.AxisLayout Cert.KernelIdeal Cert.KernelIdeal.Gen

/-- The row of node i of the block's graph g in the one-row-per-node layout. -/
def rowOf (g : Fin 256) (i : Fin 48) : Fin 12288 := ⟨g.val * 48 + i.val, by omega⟩

/-- One layer before any rectifier: features times weights, viewed per graph, aggregated by the coefficient block,
    plus the bias row. -/
def layerVec (C : FVec Ideal S256x48x48 .f32) (H : FVec Ideal S12288x64 .f32) (W : FVec Ideal S64x64 .f32)
    (bias : FVec Ideal S1x64 .f32) : FVec Ideal S256x48x64 .f32 :=
  addf (F := Ideal)
    (matmul (F := Ideal) dot_S256x48x48_S256x48x64_S256x48x64_1_1_2_2_0_0 none C
      (shapeCast S256x48x64
        (matmul (F := Ideal) dot_S12288x64_S64x64_S12288x64_1_0_0_1_n_n none H W (constant (F := Ideal) S12288x64 .f32 0x00000000#32))
        shapeCasts_S12288x64_S256x48x64)
      (constant (F := Ideal) S256x48x64 .f32 0x00000000#32))
    (broadcastTo S256x48x64 (shapeCast S1x1x64 (shapeCast S1x64 bias shapeCasts_S1x64_S1x64) shapeCasts_S1x64_S1x1x64)
      broadcasts_S1x1x64_S256x48x64)

/-- The body's stored value is the second layer over the coefficient block and the rectified first layer. -/
theorem pay1_eq (v25 : FVec Ideal S256x48x48 .f32) (v38 : FVec Ideal S12288x64 .f32) (v39 : Vec Ideal S64x64 .f32)
    (v43 : Vec Ideal S1x64 .f32) : k0_pay1 v25 v38 v39 v43 = layerVec v25 v38 v39 v43 := rfl

/-- The rectified first layer, in the one-row-per-node layout. -/
theorem pay3_eq (v0 : Vec Ideal S256x48x64 .f32) (v1 : Vec Ideal S256x48x48 .f32) (v27 : Vec Ideal S64x64 .f32)
    (v31 : Vec Ideal S1x64 .f32) :
    k0_pay3 v0 v1 v27 v31 = shapeCast S12288x64
      (maximumf (F := Ideal) (layerVec (k0_pay2 v1) (shapeCast S12288x64 v0 shapeCasts_S256x48x64_S12288x64) v27 v31)
        (broadcast S256x48x64 (Scalar.ofBits (F := Ideal) .f32 0x00000000#32)))
      shapeCasts_S256x48x64_S12288x64 := rfl

/-- ONE LAYER AT AN INDEX: graph g, node j, column k. -/
theorem layerVec_apply (C : FVec Ideal S256x48x48 .f32) (H : FVec Ideal S12288x64 .f32) (W : FVec Ideal S64x64 .f32)
    (bias : FVec Ideal S1x64 .f32) (g : Fin 256) (j : Fin 48) (k : Fin 64) :
    layerVec C H W bias (ix3 g j k)
      = (∑ i : Fin 48, (C (ix3 g i j) : EReal) * ∑ d : Fin 64, (H (ix2 (rowOf g i) d) : EReal) * (W (ix2 d k) : EReal))
        + (bias (ix2 (0 : Fin 1) k) : EReal) := by
  have eb : broadcastTo S256x48x64 (shapeCast S1x1x64 (shapeCast S1x64 bias shapeCasts_S1x64_S1x64) shapeCasts_S1x64_S1x1x64)
      broadcasts_S1x1x64_S256x48x64 (ix3 g j k) = bias (ix2 (0 : Fin 1) k) :=
    (bcast3_apply _ broadcasts_S1x1x64_S256x48x64 g j k (0 : Fin 1) (0 : Fin 1) k rfl rfl rfl).trans
      ((cast_addMid_apply _ shapeCasts_S1x64_S1x1x64 (0 : Fin 1) 0 k).trans
        (congrFun (shapeCast_self bias shapeCasts_S1x64_S1x64) _))
  have em := aggDot_mid.matmul_zero none C
    (shapeCast S256x48x64
      (matmul (F := Ideal) dot_S12288x64_S64x64_S12288x64_1_0_0_1_n_n none H W (constant (F := Ideal) S12288x64 .f32 0x00000000#32))
      shapeCasts_S12288x64_S256x48x64) g j k
  show matmul (F := Ideal) dot_S256x48x48_S256x48x64_S256x48x64_1_1_2_2_0_0 none C _ _ (ix3 g j k) + _ = _
  rw [eb, em]
  refine congrArg (· + (bias (ix2 (0 : Fin 1) k) : EReal)) (Finset.sum_congr rfl fun i _ => congrArg ((C (ix3 g i j) : EReal) * ·) ?_)
  exact (cast_split_apply _ shapeCasts_S12288x64_S256x48x64 g i k (rowOf g i) rfl).trans
    (matmul_zero_ix2_any featureDot_plain none H W (rowOf g i) k)

/-- THE RECTIFIED FIRST LAYER AT AN INDEX: row 48·g + j, column l of the body's intermediate is the specification's
    hidden layer at graph G, node j, column l, when graph g of each block is graph G of its array, the weight block
    is the weight matrix and the bias block the bias as a row. -/
theorem pay3_apply (x0 : Vec Ideal S256x48x64 .f32) (x1 : Vec Ideal S256x48x48 .f32) (x2 : Vec Ideal S64x64 .f32)
    (x3 : Vec Ideal S1x64 .f32) (X : Cert.Gcn.SX.Idx → EReal) (A : Cert.Gcn.SA.Idx → EReal) (W1 : Cert.Gcn.SW.Idx → EReal)
    (b1 : Cert.Gcn.SB.Idx → EReal) (G : Fin 1024) (g : Fin 256)
    (hx0 : ∀ (i : Fin 48) (d : Fin 64), x0 (ix3 g i d) = X (ix3 G i d))
    (hx1 : ∀ i j : Fin 48, x1 (ix3 g i j) = A (ix3 G i j))
    (hx2 : ∀ d l : Fin 64, x2 (ix2 d l) = W1 (ix2 d l))
    (hx3 : ∀ l : Fin 64, x3 (ix2 (0 : Fin 1) l) = b1 (ix1 l)) (j : Fin 48) (l : Fin 64) :
    k0_pay3 x0 x1 x2 x3 (ix2 (rowOf g j) l) = Cert.Gcn.hidden X A W1 b1 G j l := by
  rw [pay3_eq]
  refine (cast_merge_apply _ shapeCasts_S256x48x64_S12288x64 g j l (rowOf g j) rfl).trans ?_
  show max (layerVec (k0_pay2 x1) (shapeCast S12288x64 x0 shapeCasts_S256x48x64_S12288x64) x2 x3 (ix3 g j l))
      (Ideal.ofBits .f32 0x00000000#32) = _
  rw [layerVec_apply, hx3]
  show _ = max ((∑ i : Fin 48, Cert.Gcn.coef A G i j * ∑ d : Fin 64, X (ix3 G i d) * W1 (ix2 d l)) + b1 (ix1 l)) Cert.Gcn.zero
  refine congrArg (fun s => max (s + b1 (ix1 l)) Cert.Gcn.zero) (Finset.sum_congr rfl fun i _ => ?_)
  rw [pay2_apply x1 A G g hx1 i j]
  refine congrArg (Cert.Gcn.coef A G i j * ·) (Finset.sum_congr rfl fun d _ => ?_)
  rw [cast_merge_apply x0 shapeCasts_S256x48x64_S12288x64 g i d (rowOf g i) rfl, hx0, hx2]

/-- THE STORED VALUE AT AN INDEX: graph g of the block, node j, column k of what the body stores is the
    specification's output at graph G, node j, column k. -/
theorem pay1_apply (x0 : Vec Ideal S256x48x64 .f32) (x1 : Vec Ideal S256x48x48 .f32) (x2 : Vec Ideal S64x64 .f32)
    (x3 : Vec Ideal S1x64 .f32) (x4 : Vec Ideal S64x64 .f32) (x5 : Vec Ideal S1x64 .f32)
    (X : Cert.Gcn.SX.Idx → EReal) (A : Cert.Gcn.SA.Idx → EReal) (W1 : Cert.Gcn.SW.Idx → EReal) (b1 : Cert.Gcn.SB.Idx → EReal)
    (W2 : Cert.Gcn.SW.Idx → EReal) (b2 : Cert.Gcn.SB.Idx → EReal) (G : Fin 1024) (g : Fin 256)
    (hx0 : ∀ (i : Fin 48) (d : Fin 64), x0 (ix3 g i d) = X (ix3 G i d))
    (hx1 : ∀ i j : Fin 48, x1 (ix3 g i j) = A (ix3 G i j))
    (hx2 : ∀ d l : Fin 64, x2 (ix2 d l) = W1 (ix2 d l))
    (hx3 : ∀ l : Fin 64, x3 (ix2 (0 : Fin 1) l) = b1 (ix1 l))
    (hx4 : ∀ d l : Fin 64, x4 (ix2 d l) = W2 (ix2 d l))
    (hx5 : ∀ l : Fin 64, x5 (ix2 (0 : Fin 1) l) = b2 (ix1 l)) (j : Fin 48) (k : Fin 64) :
    k0_pay1 (k0_pay2 x1) (k0_pay3 x0 x1 x2 x3) x4 x5 (ix3 g j k) = Cert.Gcn.out X A W1 b1 W2 b2 (ix3 G j k) := by
  rw [pay1_eq, layerVec_apply, hx5]
  show _ = (∑ i : Fin 48, Cert.Gcn.coef A G i j * ∑ d : Fin 64, Cert.Gcn.hidden X A W1 b1 G i d * W2 (ix2 d k)) + b2 (ix1 k)
  refine congrArg (· + b2 (ix1 k)) (Finset.sum_congr rfl fun i _ => ?_)
  rw [pay2_apply x1 A G g hx1 i j]
  refine congrArg (Cert.Gcn.coef A G i j * ·) (Finset.sum_congr rfl fun d _ => ?_)
  rw [pay3_apply x0 x1 x2 x3 X A W1 b1 G g hx0 hx1 hx2 hx3 i d, hx4]

end Cert.KernelIdeal.GcnValue

end
-- ==== Proof.KernelArrayBlocks.lean ====
/-
  What one grid point writes back, as a block of the specification's output array.

  The grid has four points; point t works on graphs 256·t … 256·t + 255. Its block of the node features and of the
  adjacency array is those graphs' rows of the whole array: entry (g, i, d) of the block is entry (256·t + g, i, d) of
  the array. The two weight matrices are whole at every point. The two biases reach the region as rows: before the
  region each bias vector of length 64 is recast to a 1 x 64 array, whose entry (0, l) is entry l of the vector, and
  that row is whole at every point.

  With these reads the body's stored value at (g, j, k) is the specification's output at (256·t + g, j, k), which is
  the entry of the output array that the point's block of the output window holds at (g, j, k): point t writes back
  block t of the specification's output.
-/
import Idealize.ShloMosaic.Lib.Pipeline.Value
import Idealize.ShloMosaic.Lib.ValueLayout
import Idealize.ShloMosaic.Lib.Tactic
import proofs.«134418_g103079215284_cont_sun_m_88_9_alg».proof.Proof.Gen.KernelIdeal.Frame
import proofs.«134418_g103079215284_cont_sun_m_88_9_alg».proof.Proof.Gen.KernelIdeal.Value
import proofs.«134418_g103079215284_cont_sun_m_88_9_alg».proof.Proof.Spec
import proofs.«134418_g103079215284_cont_sun_m_88_9_alg».proof.Proof.KernelEntryLayer

noncomputable section

namespace Cert.KernelIdeal.GcnValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specification's output of the six argument arrays as launched on core c. -/
abbrev result (c : Dev nD) : Buf (Elt Ideal) ((c : Thread nD τ).loc main_v2) :=
  Cert.Gcn.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The windows' block indices at a point: the three per-graph windows sit at block t of the graph axis, the four
    parameter windows at block 0 (decided over the four points). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The bias rows as the region finds them -/

/-- The first bias reaches the region recast from a vector of length 64 to a 1 x 64 row. -/
theorem V_main_v0 (c : Dev nD) :
    (V m c main_v0 : S1x64.Idx → EReal)
      = shapeCast S1x64 (m ((c : Thread nD τ).loc main_arg3) : S64.Idx → EReal) shapeCasts_S64_S1x64 := by
  dsimp only [Gen.V, Gen.hostOps0]
  after_results
  rfl

/-- So does the second. -/
theorem V_main_v1 (c : Dev nD) :
    (V m c main_v1 : S1x64.Idx → EReal)
      = shapeCast S1x64 (m ((c : Thread nD τ).loc main_arg5) : S64.Idx → EReal) shapeCasts_S64_S1x64 := by
  dsimp only [Gen.V, Gen.hostOps0]
  after_results
  rfl

/-! ## Each window's block at a point, read at an index -/

/-- Graph g of point t's block of the node features is graph 256·t + g of the array. -/
theorem blk0_apply (c : Dev nD) (t : Fin cfg0.N) (G : Fin 1024) (g : Fin 256) (hG : G.val = 256 * t.val + g.val)
    (i : Fin 48) (d : Fin 64) :
    (iblk m c 0 t : Vec Ideal S256x48x64 .f32) (ix3 g i d)
      = (m ((c : Thread nD τ).loc main_arg0) : S1024x48x64.Idx → EReal) (ix3 G i d) := by
  obtain ⟨e0, e1, e2, -⟩ := idx_facts t
  unfold iblk
  rw [View.read_apply]
  show V m c main_arg0 (((cfg0.win 0).blk t).view.emb (ix3 g i d)) = _
  rw [← V_main_arg0 m c]
  refine congrArg (V m c main_arg0) (funext fun a => Fin.ext ?_)
  match a with
  | ⟨0, _⟩ => show win0_0.index t (0 : Fin 3) * 256 + 1 * g.val = G.val; omega
  | ⟨1, _⟩ => show win0_0.index t (1 : Fin 3) * 48 + 1 * i.val = i.val; omega
  | ⟨2, _⟩ => show win0_0.index t (2 : Fin 3) * 64 + 1 * d.val = d.val; omega

/-- Graph g of point t's block of the adjacency array is graph 256·t + g of the array. -/
theorem blk1_apply (c : Dev nD) (t : Fin cfg0.N) (G : Fin 1024) (g : Fin 256) (hG : G.val = 256 * t.val + g.val)
    (i j : Fin 48) :
    (iblk m c 1 t : Vec Ideal S256x48x48 .f32) (ix3 g i j)
      = (m ((c : Thread nD τ).loc main_arg1) : S1024x48x48.Idx → EReal) (ix3 G i j) := by
  obtain ⟨-, -, -, e0, e1, e2, -⟩ := idx_facts t
  unfold iblk
  rw [View.read_apply]
  show V m c main_arg1 (((cfg0.win 1).blk t).view.emb (ix3 g i j)) = _
  rw [← V_main_arg1 m c]
  refine congrArg (V m c main_arg1) (funext fun a => Fin.ext ?_)
  match a with
  | ⟨0, _⟩ => show win0_1.index t (0 : Fin 3) * 256 + 1 * g.val = G.val; omega
  | ⟨1, _⟩ => show win0_1.index t (1 : Fin 3) * 48 + 1 * i.val = i.val; omega
  | ⟨2, _⟩ => show win0_1.index t (2 : Fin 3) * 48 + 1 * j.val = j.val; omega

/-- The first weight matrix is whole at every point. -/
theorem blk2_apply (c : Dev nD) (t : Fin cfg0.N) (d l : Fin 64) :
    (iblk m c 2 t : Vec Ideal S64x64 .f32) (ix2 d l)
      = (m ((c : Thread nD τ).loc main_arg2) : S64x64.Idx → EReal) (ix2 d l) := by
  obtain ⟨-, -, -, -, -, -, e0, e1, -⟩ := idx_facts t
  unfold iblk
  rw [View.read_apply]
  show V m c main_arg2 (((cfg0.win 2).blk t).view.emb (ix2 d l)) = _
  rw [← V_main_arg2 m c]
  refine congrArg (V m c main_arg2) (funext fun a => Fin.ext ?_)
  match a with
  | ⟨0, _⟩ => show win0_2.index t (0 : Fin 2) * 64 + 1 * d.val = d.val; omega
  | ⟨1, _⟩ => show win0_2.index t (1 : Fin 2) * 64 + 1 * l.val = l.val; omega

/-- The first bias row is whole at every point, and its entry (0, l) is entry l of the bias vector. -/
theorem blk3_apply (c : Dev nD) (t : Fin cfg0.N) (l : Fin 64) :
    (iblk m c 3 t : Vec Ideal S1x64 .f32) (ix2 (0 : Fin 1) l)
      = (m ((c : Thread nD τ).loc main_arg3) : S64.Idx → EReal) (ix1 l) := by
  obtain ⟨-, -, -, -, -, -, -, -, e0, e1, -⟩ := idx_facts t
  unfold iblk
  rw [View.read_apply]
  show V m c main_v0 (((cfg0.win 3).blk t).view.emb (ix2 (0 : Fin 1) l)) = _
  have he : ((cfg0.win 3).blk t).view.emb (ix2 (0 : Fin 1) l) = ix2 (0 : Fin 1) l := funext fun a => Fin.ext (by
    match a with
    | ⟨0, _⟩ => show win0_3.index t (0 : Fin 2) * 1 + 1 * 0 = 0; omega
    | ⟨1, _⟩ => show win0_3.index t (1 : Fin 2) * 64 + 1 * l.val = l.val; omega)
  rw [he, V_main_v0 m c]
  exact shapeCast_a_1a_apply _ shapeCasts_S64_S1x64 (0 : Fin 1) l

/-- The second weight matrix is whole at every point. -/
theorem blk4_apply (c : Dev nD) (t : Fin cfg0.N) (d l : Fin 64) :
    (iblk m c 4 t : Vec Ideal S64x64 .f32) (ix2 d l)
      = (m ((c : Thread nD τ).loc main_arg4) : S64x64.Idx → EReal) (ix2 d l) := by
  obtain ⟨-, -, -, -, -, -, -, -, -, -, e0, e1, -⟩ := idx_facts t
  unfold iblk
  rw [View.read_apply]
  show V m c main_arg4 (((cfg0.win 4).blk t).view.emb (ix2 d l)) = _
  rw [← V_main_arg4 m c]
  refine congrArg (V m c main_arg4) (funext fun a => Fin.ext ?_)
  match a with
  | ⟨0, _⟩ => show win0_4.index t (0 : Fin 2) * 64 + 1 * d.val = d.val; omega
  | ⟨1, _⟩ => show win0_4.index t (1 : Fin 2) * 64 + 1 * l.val = l.val; omega

/-- The second bias row is whole at every point, and its entry (0, l) is entry l of the bias vector. -/
theorem blk5_apply (c : Dev nD) (t : Fin cfg0.N) (l : Fin 64) :
    (iblk m c 5 t : Vec Ideal S1x64 .f32) (ix2 (0 : Fin 1) l)
      = (m ((c : Thread nD τ).loc main_arg5) : S64.Idx → EReal) (ix1 l) := by
  obtain ⟨-, -, -, -, -, -, -, -, -, -, -, -, e0, e1, -⟩ := idx_facts t
  unfold iblk
  rw [View.read_apply]
  show V m c main_v1 (((cfg0.win 5).blk t).view.emb (ix2 (0 : Fin 1) l)) = _
  have he : ((cfg0.win 5).blk t).view.emb (ix2 (0 : Fin 1) l) = ix2 (0 : Fin 1) l := funext fun a => Fin.ext (by
    match a with
    | ⟨0, _⟩ => show win0_5.index t (0 : Fin 2) * 1 + 1 * 0 = 0; omega
    | ⟨1, _⟩ => show win0_5.index t (1 : Fin 2) * 64 + 1 * l.val = l.val; omega)
  rw [he, V_main_v1 m c]
  exact shapeCast_a_1a_apply _ shapeCasts_S64_S1x64 (0 : Fin 1) l

/-! ## What a point writes back -/

/-- WHAT POINT t WRITES BACK is block t of the specification's output of the argument arrays. -/
theorem flushed_eq (c : Dev nD) (t : Fin cfg0.N) :
    (dats m 0 c).flushed 6 t = ((cfg0.win 6).blk t).view.read (Elt Ideal) (result m c) := by
  have hN : cfg0.N = 4 := N_0
  have ht : t.val < 4 := hN ▸ t.isLt
  obtain ⟨-, -, -, -, -, -, -, -, -, -, -, -, -, -, e0, e1, e2⟩ := idx_facts t
  rw [Value.flushed6]
  unfold out0_6
  rw [View.canon_unit_zero hz3]
  simp only [View.ld_unit_zero (S := S256x48x64) hz3, View.ld_unit_zero (S := S256x48x48) hz3,
    View.ld_unit_zero (S := S64x64) hz2, View.ld_unit_zero (S := S1x64) hz2]
  funext y
  obtain ⟨g, j, k, rfl⟩ : ∃ (g : Fin 256) (j : Fin 48) (k : Fin 64), y = ix3 g j k := ⟨y 0, y 1, y 2, eq_ix3 y⟩
  have hemb : ((cfg0.win 6).blk t).view.emb (ix3 g j k) = ix3 (⟨256 * t.val + g.val, by omega⟩ : Fin 1024) j k :=
    funext fun a => Fin.ext (by
      match a with
      | ⟨0, _⟩ => show win0_6.index t (0 : Fin 3) * 256 + 1 * g.val = 256 * t.val + g.val; omega
      | ⟨1, _⟩ => show win0_6.index t (1 : Fin 3) * 48 + 1 * j.val = j.val; omega
      | ⟨2, _⟩ => show win0_6.index t (2 : Fin 3) * 64 + 1 * k.val = k.val; omega)
  show k0_pay1 (k0_pay2 (iblk m c 1 t)) (k0_pay3 (iblk m c 0 t) (iblk m c 1 t) (iblk m c 2 t) (iblk m c 3 t))
      (iblk m c 4 t) (iblk m c 5 t) (ix3 g j k) = result m c (((cfg0.win 6).blk t).view.emb (ix3 g j k))
  rw [hemb]
  exact pay1_apply (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (⟨256 * t.val + g.val, by omega⟩ : Fin 1024) g
    (fun i d => blk0_apply m c t _ g rfl i d) (fun i j' => blk1_apply m c t _ g rfl i j')
    (fun d l => blk2_apply m c t d l) (fun l => blk3_apply m c t l)
    (fun d l => blk4_apply m c t d l) (fun l => blk5_apply m c t l) j k

end Cert.KernelIdeal.GcnValue

end
-- ==== Proof.KernelArrayRun.lean ====
/-
  The kernel's run, read: the output array ends holding the specification's output of the six argument arrays.

  Every grid point writes back its block of the specification's output, and the four blocks tile the output array
  along the graph axis: graph r lies in the block of point r / 256, the other two axes are whole. So after the last
  point the array is the specification's output everywhere, and the run of the whole program ends with the result
  array at that function of the arguments and the arguments unchanged.
-/
import Idealize.ShloMosaic.Lib.Pipeline.Value
import proofs.«134418_g103079215284_cont_sun_m_88_9_alg».proof.Proof.Gen.KernelIdeal.Frame
import proofs.«134418_g103079215284_cont_sun_m_88_9_alg».proof.Proof.Gen.KernelIdeal.Value
import proofs.«134418_g103079215284_cont_sun_m_88_9_alg».proof.Proof.Spec
import proofs.«134418_g103079215284_cont_sun_m_88_9_alg».proof.Proof.KernelArrayBlocks

noncomputable section

namespace Cert.KernelIdeal.GcnValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- An index of the output array is in point t's block iff each coordinate is in the block's range on its axis. -/
theorem mem_blk (t : Fin cfg0.N) (i : S1024x48x64.Idx) :
    i ∈ ((cfg0.win 6).blk t).view.set ↔ ∀ a : Fin 3, win0_6.index t a * S256x48x64.size a ≤ (i a).val
      ∧ (i a).val < win0_6.index t a * S256x48x64.size a + S256x48x64.size a := by
  show i ∈ ((View.whole main_v2).slice (win0_6.rect t)).set ↔ _
  rw [View.set_slice_whole, Rect.mem_set_unit]
  exact Iff.rfl

/-- THE COVER: graph r of the output array lies in the block of point r / 256. -/
theorem cover (i : S1024x48x64.Idx) :
    ∃ t : Fin cfg0.N, (cfg0.win 6).flush t = true ∧ i ∈ ((cfg0.win 6).blk t).view.set := by
  have hN : cfg0.N = 4 := N_0
  have hi0 : (i 0).val < 1024 := (i 0).isLt
  have hi1 : (i 1).val < 48 := (i 1).isLt
  have hi2 : (i 2).val < 64 := (i 2).isLt
  have hq : (i 0).val / 256 < cfg0.N := by rw [hN]; omega
  obtain ⟨-, -, -, -, -, -, -, -, -, -, -, -, -, -, e0, e1, e2⟩ := idx_facts ⟨(i 0).val / 256, hq⟩
  refine ⟨⟨(i 0).val / 256, hq⟩, flush0_6 _, ?_⟩
  rw [mem_blk]
  intro a
  match a with
  | ⟨0, _⟩ =>
    show win0_6.index ⟨(i 0).val / 256, hq⟩ (0 : Fin 3) * 256 ≤ (i 0).val
      ∧ (i 0).val < win0_6.index ⟨(i 0).val / 256, hq⟩ (0 : Fin 3) * 256 + 256
    rw [e0]
    show (i 0).val / 256 * 256 ≤ (i 0).val ∧ (i 0).val < (i 0).val / 256 * 256 + 256
    omega
  | ⟨1, _⟩ =>
    show win0_6.index ⟨(i 0).val / 256, hq⟩ (1 : Fin 3) * 48 ≤ (i 1).val
      ∧ (i 1).val < win0_6.index ⟨(i 0).val / 256, hq⟩ (1 : Fin 3) * 48 + 48
    rw [e1]; omega
  | ⟨2, _⟩ =>
    show win0_6.index ⟨(i 0).val / 256, hq⟩ (2 : Fin 3) * 64 ≤ (i 2).val
      ∧ (i 2).val < win0_6.index ⟨(i 0).val / 256, hq⟩ (2 : Fin 3) * 64 + 64
    rw [e2]; omega

/-- THE ARRAY after the run is the specification's output of the argument arrays. -/
theorem final (c : Dev nD) : (dats m 0 c).arrAt 6 cfg0.N = result m c :=
  (dats m 0 c).arrAt_eq_of_cover 6 (result m c) (fun t _ => flushed_eq m c t) cover

/-- THE RUN, READ: every weakly fair execution of the program ends with the result array at the specification's
    output of the six argument arrays as launched, and the arguments unchanged. -/
theorem run : θ_run defs (onTc (τ := τ) (main (F := Ideal))) ⟨m, fun _ => 0, ρ⟩ fun r => ∀ c : Dev nD,
      r.2.mem ((c : Thread nD τ).loc main_v2)
          = Cert.Gcn.out (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.GcnValue

end
-- ==== Proof.EdgeList.lean ====
/-
  THE EDGE LIST OF 1024 COMPLETE GRAPHS WITH SELF-LOOPS, AND WHICH POSITIONS LAND ON A NODE.

  The list has 2408448 = 1024·48·48 + 49152 positions. Position (g·48 + i)·48 + j, below 2359296, is the edge i → j of
  graph g: its source is node g·48 + i and its destination node g·48 + j of the 49152 = 1024·48 nodes. Position
  2359296 + n is the self-loop of node n. So the positions whose destination is node g·48 + j are the 48 edges
  (g, i, j), one per source i, and that node's self-loop; a sum over them is a sum over i plus one term (sum_landing).

  Node numbers are held as 32-bit words computed by a multiplication by 48 and an addition; they are far below 2^31, so
  read as signed integers they are the numbers themselves (toInt_mul48_add, toInt_ofNat_small).
-/
import Idealize.ShloMosaic.PureOps.Ideal
import Idealize.ShloMosaic.Lib.ValueIdx

noncomputable section

open scoped BigOperators

namespace Cert.Gcn

open Idealize.ShloMosaic

/-- The position of edge i → j of graph g. -/
def edgePos (g : Fin 1024) (i j : Fin 48) : Fin 2408448 := ⟨(g.val * 48 + i.val) * 48 + j.val, by omega⟩
/-- The position of node n's self-loop. -/
def loopPos (n : Fin 49152) : Fin 2408448 := ⟨2359296 + n.val, by omega⟩
/-- Node j of graph g among all the nodes. -/
def node (g : Fin 1024) (j : Fin 48) : Fin 49152 := ⟨g.val * 48 + j.val, by omega⟩

/-- THE POSITIONS THAT LAND ON A NODE: if every edge (g, i, j) lands on node (g, j) and every self-loop on its node,
    a sum over the positions landing on node (g, j) is the sum over that node's 48 in-edges plus its self-loop's term. -/
theorem sum_landing {M : Type*} [AddCommMonoid M] (dst : Fin 2408448 → Option (Fin 49152))
    (hE : ∀ g i j, dst (edgePos g i j) = some (node g j)) (hL : ∀ n, dst (loopPos n) = some n)
    (f : Fin 2408448 → M) (g : Fin 1024) (j : Fin 48) :
    ∑ e ∈ Finset.univ.filter (fun e => dst e = some (node g j)), f e
      = (∑ i : Fin 48, f (edgePos g i j)) + f (loopPos (node g j)) := by
  classical
  have hset : Finset.univ.filter (fun e => dst e = some (node g j))
      = (Finset.univ.image (fun i : Fin 48 => edgePos g i j)) ∪ {loopPos (node g j)} := by
    ext e
    simp only [Finset.mem_filter, Finset.mem_univ, true_and, Finset.mem_union, Finset.mem_image, Finset.mem_singleton]
    constructor
    · intro h
      by_cases he : e.val < 2359296
      · left
        have hdec : e = edgePos ⟨e.val / 2304, by omega⟩ ⟨e.val / 48 % 48, by omega⟩ ⟨e.val % 48, by omega⟩ :=
          Fin.ext (by simp only [edgePos]; omega)
        rw [hdec, hE] at h
        have hv := congrArg Fin.val (Option.some.inj h)
        simp only [node] at hv
        refine ⟨⟨e.val / 48 % 48, by omega⟩, ?_⟩
        refine Fin.ext ?_
        simp only [edgePos]
        omega
      · right
        have hdec : e = loopPos ⟨e.val - 2359296, by have := e.isLt; omega⟩ :=
          Fin.ext (by simp only [loopPos]; omega)
        rw [hdec, hL] at h
        rw [hdec, Option.some.inj h]
    · rintro (⟨i, rfl⟩ | rfl)
      · exact hE g i j
      · exact hL _
  rw [hset, Finset.sum_union, Finset.sum_image, Finset.sum_singleton]
  · intro i _ i' _ h
    have hv := congrArg Fin.val h
    simp only [edgePos] at hv
    exact Fin.ext (by omega)
  · rw [Finset.disjoint_singleton_right]
    intro hmem
    obtain ⟨i, _, hi⟩ := Finset.mem_image.mp hmem
    have hv := congrArg Fin.val hi
    simp only [edgePos, loopPos] at hv
    have := g.isLt; have := i.isLt; have := j.isLt
    omega

/-- A node number computed as a·48 + b in 32-bit words is, read signed, the number a·48 + b. -/
theorem toInt_mul48_add (a b : Nat) (h : a * 48 + b < 2147483648) :
    (IntOp.addi (IntOp.muli (BitVec.ofNat 32 a) 48#32) (BitVec.ofNat 32 b)).toInt = ((a * 48 + b : Nat) : Int) := by
  unfold IntOp.addi IntOp.muli
  rw [BitVec.toInt_eq_toNat_cond]
  simp only [BitVec.toNat_add, BitVec.toNat_mul, BitVec.toNat_ofNat, Nat.reducePow]
  omega

/-- A small number as a 32-bit word is, read signed, itself. -/
theorem toInt_ofNat_small (n : Nat) (h : n < 2147483648) : (BitVec.ofNat 32 n).toInt = (n : Int) := by
  rw [BitVec.toInt_eq_toNat_cond]
  simp only [BitVec.toNat_ofNat, Nat.reducePow]
  omega

end Cert.Gcn

end
-- ==== Proof.RefIndex.lean ====
/-
  THE REFERENCE'S NODE NUMBERS, read at an edge and at a self-loop.

  The reference lists, for every position of the edge list, a source node number and a destination node number, as
  32-bit words: on the first 2359296 positions (the edges) they are g·48 + i and g·48 + j, computed from three iotas
  broadcast over [1024, 48, 48] and flattened; on the last 49152 positions (the self-loops) both are the node's own
  number, an iota. Before each gather and each scatter the numbers are wrapped ("add 49152 where negative"), which
  changes nothing because none is negative. So, read as signed integers, at the edge i → j of graph g the source is
  node g·48 + i and the destination node g·48 + j, and at node n's self-loop both are n.
-/
import proofs.«134418_g103079215284_cont_sun_m_88_9_alg».proof.Proof.RefReadPatched
import proofs.«134418_g103079215284_cont_sun_m_88_9_alg».proof.Proof.EdgeList
import Idealize.ShloMosaic.Lib.Pipeline.Value

noncomputable section

namespace Cert.ReferenceIdeal.RefValue

open Cert.ReferenceIdeal Cert.ReferenceIdeal.Gen Cert.ReferenceIdeal.ReadP Cert.Gcn Idealize.ShloMosaic Idealize.ShloMosaic.ValueIdx

/-! ## A list of 2359296 entries followed by 49152 entries -/

section Pieces
variable {α : Type}

/-- The joined list at a position of the first piece. -/
theorem joined_fst (x₁ : S2359296.Idx → α) (x₂ : S49152.Idx → α) (e : Nat) (h : e < 2359296) :
    concatenate S2408448 0 [⟨S2359296, x₁⟩, ⟨S49152, x₂⟩] concatenates_S2359296_S49152_S2408448_d0
        (ix1 (⟨e, by omega⟩ : Fin 2408448)) = x₁ (ix1 (⟨e, h⟩ : Fin 2359296)) :=
  concatenate_pair_apply_left 0 x₁ x₂ concatenates_S2359296_S49152_S2408448_d0
    (ix1 (⟨e, by omega⟩ : Fin 2408448)) rfl (ix1 (⟨e, h⟩ : Fin 2359296)) (fun b => match b with | ⟨0, _⟩ => rfl)

/-- The joined list at a position of the second piece. -/
theorem joined_snd (x₁ : S2359296.Idx → α) (x₂ : S49152.Idx → α) (n : Fin 49152) :
    concatenate S2408448 0 [⟨S2359296, x₁⟩, ⟨S49152, x₂⟩] concatenates_S2359296_S49152_S2408448_d0
        (ix1 (loopPos n)) = x₂ (ix1 n) :=
  concatenate_pair_apply_right 0 x₁ x₂ concatenates_S2359296_S49152_S2408448_d0 (ix1 (loopPos n)) rfl rfl (ix1 n)
    (fun b hb => match b, hb with | ⟨0, _⟩, hb => absurd rfl hb)
    (by show n.val + 2359296 = 2359296 + n.val; omega)

end Pieces

/-! ## The source and destination words on the edges -/

/-- The source word at an edge position e: (e / 2304)·48 + (e / 48 mod 48). -/
theorem src_word (e : Nat) (h : e < 2359296) :
    val_main_v16 (F := Ideal) (ix1 (⟨e, h⟩ : Fin 2359296))
      = IntOp.addi (IntOp.muli (BitVec.ofNat 32 (e / 2304)) 48#32) (BitVec.ofNat 32 (e / 48 % 48)) := by
  rw [val_main_v16_apply, val_main_v15_apply, val_main_v9_apply, val_main_v6_apply, val_main_v3_apply,
    val_main_v14_apply, val_main_c_apply, val_main_v10_apply, val_main_v7_apply, val_main_v4_apply]

/-- The destination word at an edge position e: (e / 2304)·48 + (e mod 48). -/
theorem dst_word (e : Nat) (h : e < 2359296) :
    val_main_v19 (F := Ideal) (ix1 (⟨e, h⟩ : Fin 2359296))
      = IntOp.addi (IntOp.muli (BitVec.ofNat 32 (e / 2304)) 48#32) (BitVec.ofNat 32 (e % 48)) := by
  rw [val_main_v19_apply, val_main_v18_apply, val_main_v9_apply, val_main_v6_apply, val_main_v3_apply,
    val_main_v17_apply, val_main_c_0_apply, val_main_v11_apply, val_main_v8_apply, val_main_v5_apply]

/-- The position of an edge is below the number of edges. -/
theorem edgePos_lt (g : Fin 1024) (i j : Fin 48) : (g.val * 48 + i.val) * 48 + j.val < 2359296 := by omega

/-- At the edge i → j of graph g the source number, read signed, is g·48 + i. -/
theorem src_edge (g : Fin 1024) (i j : Fin 48) :
    (val_main_v22 (F := Ideal) (ix1 (edgePos g i j))).toInt = ((node g i).val : Int) := by
  unfold val_main_v22
  rw [show edgePos g i j = (⟨(g.val * 48 + i.val) * 48 + j.val, by omega⟩ : Fin 2408448) from rfl,
    joined_fst _ _ _ (edgePos_lt g i j), src_word]
  have h1 : ((g.val * 48 + i.val) * 48 + j.val) / 2304 = g.val := by omega
  have h2 : ((g.val * 48 + i.val) * 48 + j.val) / 48 % 48 = i.val := by omega
  rw [h1, h2]
  exact toInt_mul48_add g.val i.val (by omega)

/-- At the edge i → j of graph g the destination number, read signed, is g·48 + j. -/
theorem dst_edge (g : Fin 1024) (i j : Fin 48) :
    (val_main_v23 (F := Ideal) (ix1 (edgePos g i j))).toInt = ((node g j).val : Int) := by
  unfold val_main_v23
  rw [show edgePos g i j = (⟨(g.val * 48 + i.val) * 48 + j.val, by omega⟩ : Fin 2408448) from rfl,
    joined_fst _ _ _ (edgePos_lt g i j), dst_word]
  have h1 : ((g.val * 48 + i.val) * 48 + j.val) / 2304 = g.val := by omega
  have h2 : ((g.val * 48 + i.val) * 48 + j.val) % 48 = j.val := by omega
  rw [h1, h2]
  exact toInt_mul48_add g.val j.val (by omega)

/-- At node n's self-loop the source number, read signed, is n. -/
theorem src_loop (n : Fin 49152) : (val_main_v22 (F := Ideal) (ix1 (loopPos n))).toInt = (n.val : Int) := by
  unfold val_main_v22
  rw [joined_snd, val_main_v21_apply]
  exact toInt_ofNat_small n.val (by omega)

/-- At node n's self-loop the destination number, read signed, is n. -/
theorem dst_loop (n : Fin 49152) : (val_main_v23 (F := Ideal) (ix1 (loopPos n))).toInt = (n.val : Int) := by
  unfold val_main_v23
  rw [joined_snd, val_main_v21_apply]
  exact toInt_ofNat_small n.val (by omega)

/-! ## The wrap of negative numbers changes nothing here -/

/-- "r + N where r is negative, r elsewhere" is r when r is not negative. -/
theorem wrap_of_nonneg (r N : BitVec 32) (h : 0 ≤ r.toInt) :
    Scalar.select (IntOp.cmpi .slt r 0#32) (IntOp.addi r N) r = r := by
  unfold Scalar.select IntOp.cmpi
  simp only [BitVec.slt, BitVec.toInt_zero]
  have hn : ¬ r.toInt < 0 := not_lt.mpr h
  simp [hn]

/-- The wrapped destination numbers, as the column the scatters and gathers read, at a position where the number is
    not negative. -/
theorem dstCol_apply (e : Fin 2408448) (h : 0 ≤ (val_main_v23 (F := Ideal) (ix1 e)).toInt) :
    val_main_v32 (F := Ideal) (ix2 e (0 : Fin 1)) = val_main_v23 (F := Ideal) (ix1 e) := by
  rw [val_main_v32_apply, show idx_main_v32 (ix2 e (0 : Fin 1)) = ix1 e from funext fun a => match a with | ⟨0, _⟩ => rfl,
    val_main_v31_apply, val_main_v28_apply, val_main_v27_apply, val_main_c_3_apply, val_main_v30_apply, val_main_v29_apply,
    val_main_c_4_apply]
  exact wrap_of_nonneg _ _ h

/-- The wrapped source numbers, as the column the gathers read, at a position where the number is not negative. -/
theorem srcCol_apply (e : Fin 2408448) (h : 0 ≤ (val_main_v22 (F := Ideal) (ix1 e)).toInt) :
    val_main_v44 (F := Ideal) (ix2 e (0 : Fin 1)) = val_main_v22 (F := Ideal) (ix1 e) := by
  rw [val_main_v44_apply, show idx_main_v44 (ix2 e (0 : Fin 1)) = ix1 e from funext fun a => match a with | ⟨0, _⟩ => rfl,
    val_main_v43_apply, val_main_v40_apply, val_main_v39_apply, val_main_c_8_apply, val_main_v42_apply, val_main_v41_apply,
    val_main_c_9_apply]
  exact wrap_of_nonneg _ _ h

/-! ## The columns' signed values -/

theorem dstCol_edge (g : Fin 1024) (i j : Fin 48) :
    (val_main_v32 (F := Ideal) (ix2 (edgePos g i j) (0 : Fin 1))).toInt = ((node g j).val : Int) := by
  rw [dstCol_apply _ (by rw [dst_edge]; omega), dst_edge]

theorem dstCol_loop (n : Fin 49152) :
    (val_main_v32 (F := Ideal) (ix2 (loopPos n) (0 : Fin 1))).toInt = (n.val : Int) := by
  rw [dstCol_apply _ (by rw [dst_loop]; omega), dst_loop]

theorem srcCol_edge (g : Fin 1024) (i j : Fin 48) :
    (val_main_v44 (F := Ideal) (ix2 (edgePos g i j) (0 : Fin 1))).toInt = ((node g i).val : Int) := by
  rw [srcCol_apply _ (by rw [src_edge]; omega), src_edge]

theorem srcCol_loop (n : Fin 49152) :
    (val_main_v44 (F := Ideal) (ix2 (loopPos n) (0 : Fin 1))).toInt = (n.val : Int) := by
  rw [srcCol_apply _ (by rw [src_loop]; omega), src_loop]

end Cert.ReferenceIdeal.RefValue

end
-- ==== Proof.LibScatterSum.lean ====
/-
  A scatter whose combiner is addition, read at an index: the operand's entry plus the sum of the updates that land there.

  `Host.scatter d f x idx upd` folds over the update indices in row-major order; the step for an update index whose
  landing index (`ScatterDims.resultIdx?`) is `some i` replaces the entry at `i` by `f` of that entry and the update,
  and an update whose landing index is `none` (outside the operand) is dropped.  When `f` is the addition of a
  commutative monoid, every step adds to entry `b` the update if it lands on `b` and zero otherwise, so the entry at
  `i` after the fold is the entry before it plus the sum of the updates whose landing index is `some i`.  This holds
  for every choice of dimension numbers; it is the same formula the exact float accumulation
  `Ideal.hostScatterAdd` is defined by.
-/
import Idealize.ShloMosaic.PureOps.ShapeOps
import Mathlib.Algebra.BigOperators.Group.Finset.Basic
import Mathlib.Algebra.BigOperators.Fin

namespace ScatterSum

open Idealize.ShloMosaic

/-- A fold whose every step adds `g n b` to entry `b`: the entry at `b` ends at its start plus the sum of the
    `g n b` over the list. -/
theorem foldl_of_step {α β ι : Type*} [AddCommMonoid α] (step : (β → α) → ι → (β → α)) (g : ι → β → α)
    (hstep : ∀ r n b, step r n b = r b + g n b) (l : List ι) (r : β → α) (b : β) :
    (l.foldl step r) b = r b + (l.map fun n => g n b).sum := by
  induction l generalizing r with
  | nil => simp
  | cons a l ih =>
    simp only [List.foldl_cons, List.map_cons, List.sum_cons]
    rw [ih, hstep, add_assoc]

variable {α : Type} [AddCommMonoid α] {s si u : Shape} {w : ℕ}

/-- A scatter with an additive combiner at an index: the operand's entry plus the sum of the updates whose
    landing index is that entry. -/
theorem scatter_add_apply (d : ScatterDims s si u) (f : α → α → α) (hf : ∀ a b, f a b = a + b)
    (x : s.Idx → α) (idx : IVec si w) (upd : u.Idx → α) (i : s.Idx) :
    Host.scatter d f x idx upd i
      = x i + ∑ j ∈ Finset.univ.filter (fun j => d.resultIdx? j idx = some i), upd j := by
  unfold Host.scatter
  rw [foldl_of_step _
    (fun n b => if d.resultIdx? (u.rowMajor.symm n) idx = some b then upd (u.rowMajor.symm n) else 0) ?_,
    ← List.ofFn_eq_map, List.sum_ofFn, Finset.sum_filter]
  · congr 1
    exact Equiv.sum_comp u.rowMajor.symm (fun j => if d.resultIdx? j idx = some i then upd j else 0)
  · intro r n b
    cases hres : d.resultIdx? (u.rowMajor.symm n) idx with
    | none => simp
    | some i =>
      by_cases hb : b = i
      · subst hb; simp [hf]
      · have hne : ¬ (i = b) := fun h => hb h.symm
        simp [hb, hne]

end ScatterSum
-- ==== Proof.LibPrefixSum.lean ====
/-
  The inclusive prefix sum that a full-width padded window sum computes, read at an index.

  `Host.reduceWindow IntOp.addi ![m + 1] ![1] ![m] ![0] x init` over a one-axis array of length `m + 1` slides a window
  of `m + 1` positions over the array padded with `m` initial values on the low side: the window at output
  position `j` covers padded positions `j … j + m`, that is, array positions `0 … j` preceded by `m - j` padding
  cells.  With the initial value `0` its sum is `x 0 + … + x j`: the inclusive prefix sum.  The sum is taken as a
  left fold over the window's positions; addition of bit vectors is commutative and associative, so the fold is
  the finite sum over the window, which is re-indexed by `q ↦ j + q - m` onto `0 … j`.

  Then two facts that turn such sums of 32-bit words into natural numbers: a finite sum of bit vectors has the
  sum of their values as its value when that sum is below `2 ^ w`; and a sum of indicator words `1` / `0` of a
  decidable predicate over `range n` has value `Nat.count p n` when `n < 2 ^ w`.
-/
import Idealize.ShloMosaic.PureOps.Contract
import Idealize.ShloMosaic.Lib.ValueIdx
import Mathlib.Data.BitVec
import Mathlib.Data.Nat.Count
import Mathlib.Algebra.BigOperators.Intervals
import Mathlib.Algebra.BigOperators.Fin

namespace PrefixSumRead

open Idealize.ShloMosaic

/-- A left fold that adds one term per list element is the start value plus the sum of the terms. -/
theorem foldl_add_eq {α ι : Type*} [AddCommMonoid α] (g : ι → α) (l : List ι) (v : α) :
    l.foldl (fun r k => r + g k) v = v + (l.map g).sum := by
  induction l generalizing v with
  | nil => simp
  | cons a l ih => simp [ih, add_assoc]

/-- The same over all of `Fin N` in order: the start value plus the finite sum. -/
theorem foldl_finRange_add_eq {α : Type*} [AddCommMonoid α] {N : ℕ} (g : Fin N → α) (v : α) :
    (List.finRange N).foldl (fun r k => r + g k) v = v + ∑ k, g k := by
  rw [foldl_add_eq, ← List.ofFn_eq_map, List.sum_ofFn]

/-- The indices of a one-axis shape are its coordinates. -/
def idxEquiv1 {n : ℕ} : (⟨1, ![n]⟩ : Shape).Idx ≃ Fin n where
  toFun j := j 0
  invFun a := ValueIdx.ix1 a
  left_inv j := (ValueIdx.eq_ix1 j).symm
  right_inv _ := rfl

@[simp] theorem idxEquiv1_apply {n : ℕ} (j : (⟨1, ![n]⟩ : Shape).Idx) : idxEquiv1 j = j 0 := rfl

/-- A sum over a one-axis shape's indices is the sum over its coordinates. -/
theorem sum_idx1 {M : Type*} [AddCommMonoid M] {n : ℕ} (f : (⟨1, ![n]⟩ : Shape).Idx → M) :
    ∑ i, f i = ∑ a : Fin n, f (ValueIdx.ix1 a) :=
  (Fintype.sum_equiv idxEquiv1.symm _ _ fun _ => rfl).symm

/-- The window at output position `j0 ≤ m`, of `m + 1` cells of which the first `m - j0` are padding: the cells
    `q` with `m ≤ j0 + q` hold array position `j0 + q - m`, and these are the positions `0 … j0`. -/
theorem sum_shift {α : Type*} [AddCommMonoid α] (X : ℕ → α) (m j0 : ℕ) (hj : j0 ≤ m) :
    (∑ q ∈ Finset.range (m + 1), if m ≤ j0 + q then X (j0 + q - m) else 0) = ∑ k ∈ Finset.range (j0 + 1), X k := by
  rw [← Finset.sum_filter]
  refine Finset.sum_nbij' (fun q => j0 + q - m) (fun k => k + m - j0) ?_ ?_ ?_ ?_ ?_
  · intro q hq; simp only [Finset.mem_filter, Finset.mem_range] at hq ⊢; omega
  · intro k hk; simp only [Finset.mem_filter, Finset.mem_range] at hk ⊢; omega
  · intro q hq; simp only [Finset.mem_filter, Finset.mem_range] at hq; omega
  · intro k hk; simp only [Finset.mem_range] at hk; omega
  · intro q _; rfl

/-- The full-width window sum, padded `m` low, of a one-axis integer array of length `m + 1` whose entry at
    coordinate `k` is `X k`, from the initial value `0`: at output position `j` the inclusive prefix sum
    `X 0 + … + X j`. -/
theorem reduceWindow_addi_prefix {w m : ℕ}
    (x : (⟨1, ![m + 1]⟩ : Shape).Idx → BitVec w) (X : ℕ → BitVec w)
    (hx : ∀ i, x i = X (i 0).val)
    {u : Shape} (init : u.Idx → BitVec w) (hu : 0 < u.numel) (hinit : init (Shape.Idx.first hu) = 0)
    (h : (⟨1, ![m + 1]⟩ : Shape).ReduceWindows ![m + 1] ![1] ![m] ![0] ⟨1, ![m + 1]⟩)
    (j : (⟨1, ![m + 1]⟩ : Shape).Idx) :
    Host.reduceWindow IntOp.addi ![m + 1] ![1] ![m] ![0] x init h hu j
      = ∑ k ∈ Finset.range ((j 0).val + 1), X k := by
  unfold Host.reduceWindow
  simp only [IntOp.addi]
  rw [foldl_finRange_add_eq, hinit, zero_add]
  have hj : (j 0).val < m + 1 := (j 0).isLt
  rw [Fintype.sum_equiv ((Shape.rowMajor _).symm.trans idxEquiv1) _
        (fun q : Fin (m + 1) => if m ≤ (j 0).val + q.val then X ((j 0).val + q.val - m) else 0) ?_]
  · rw [Fin.sum_univ_eq_sum_range (fun q => if m ≤ (j 0).val + q then X ((j 0).val + q - m) else 0) (m + 1)]
    exact sum_shift X m (j 0).val (by omega)
  · intro k
    simp only [Equiv.trans_apply, idxEquiv1_apply]
    have hy : ((Shape.rowMajor (⟨1, ![m + 1]⟩ : Shape)).symm k 0).val < m + 1 := ((Shape.rowMajor _).symm k 0).isLt
    by_cases h2 : m ≤ (j 0).val + ((Shape.rowMajor (⟨1, ![m + 1]⟩ : Shape)).symm k 0).val
    · refine Eq.trans ?_ (if_pos h2).symm
      split_ifs with h1
      · exact (hx _).trans (congrArg X (by simp))
      · exact absurd (by intro a; fin_cases a; simp; omega) h1
    · refine Eq.trans ?_ (if_neg h2).symm
      split_ifs with h1
      · exfalso
        have := (h1 0).1
        simp at this
        omega
      · rfl

/-- A finite sum of bit vectors has the sum of their values as its value, when that sum fits the width. -/
theorem toNat_sum {ι : Type*} [DecidableEq ι] {w : ℕ} (s : Finset ι) (f : ι → BitVec w)
    (hlt : ∑ i ∈ s, (f i).toNat < 2 ^ w) : (∑ i ∈ s, f i).toNat = ∑ i ∈ s, (f i).toNat := by
  induction s using Finset.induction_on with
  | empty => simp
  | insert a s ha ih =>
    rw [Finset.sum_insert ha] at hlt ⊢
    rw [Finset.sum_insert ha, BitVec.toNat_add, ih (by omega), Nat.mod_eq_of_lt hlt]

/-- The value of the indicator word of a proposition. -/
theorem toNat_indicator {w : ℕ} (hw : 0 < w) (c : Prop) [Decidable c] :
    (if c then (1 : BitVec w) else 0).toNat = if c then 1 else 0 := by
  split_ifs
  · show (BitVec.ofNat w 1).toNat = 1
    rw [BitVec.toNat_ofNat]
    exact Nat.one_mod_two_pow hw
  · rfl

/-- The number of positions below `n` satisfying `p`, as a sum of indicators. -/
theorem count_eq_sum (p : ℕ → Prop) [DecidablePred p] (n : ℕ) :
    Nat.count p n = ∑ k ∈ Finset.range n, if p k then 1 else 0 := by
  induction n with
  | zero => simp
  | succ n ih => rw [Nat.count_succ, Finset.sum_range_succ, ih]

/-- A sum of indicator words `1` / `0` of `p` over `range n` has value `Nat.count p n`, when `n < 2 ^ w`. -/
theorem toNat_sum_indicator {w : ℕ} (hw : 0 < w) (p : ℕ → Prop) [DecidablePred p] (n : ℕ) (hn : n < 2 ^ w) :
    (∑ k ∈ Finset.range n, if p k then (1 : BitVec w) else 0).toNat = Nat.count p n := by
  have hsum : ∑ k ∈ Finset.range n, (if p k then (1 : BitVec w) else 0).toNat = Nat.count p n := by
    rw [count_eq_sum]; exact Finset.sum_congr rfl fun k _ => toNat_indicator hw (p k)
  rw [toNat_sum _ _ (by rw [hsum]; exact lt_of_le_of_lt (Nat.count_le p) hn), hsum]

end PrefixSumRead
-- ==== Proof.LibVecScatter.lean ====
/-
  Adding a vector of updates into a one-axis table at positions given by an index vector (jnp's `x.at[idx].add(u)` of a
  one-axis array, and `jnp.bincount` when the updates are ones), read at an index.

  For a table `x` of `N` entries, positions `idx` of `E` integer words (held as an `E × 1` array) and updates `u` of
  `E` entries, the scatter whose dimension numbers have no update window axis, insert the table's one axis and map the one
  index component to it sends update `e` to table position `idx e`, read as a SIGNED integer and not clamped, when
  `0 ≤ idx e < N`, and drops it otherwise (`vecDst`, `vecScatter_resultIdx`).  With an additive combiner the table's
  entry at `r` ends at `x r` plus the sum of the updates at the positions `e` with `idx e = r`
  (`vecScatter_add_apply`).
-/
import Idealize.ShloMosaic.PureOps.ShapeOps
import Idealize.ShloMosaic.Lib.ValueIdx
import proofs.«134418_g103079215284_cont_sun_m_88_9_alg».proof.Proof.LibScatterSum
import proofs.«134418_g103079215284_cont_sun_m_88_9_alg».proof.Proof.LibPrefixSum

namespace VecScatter

open Idealize.ShloMosaic Idealize.ShloMosaic.ValueIdx

/-- The scatter dimension numbers of `x.at[idx].add(u)` for a one-axis table `x : [N]`, positions `idx : [E, 1]` and
    updates `u : [E]`: no update window axis, the table's axis inserted and the target of the one index component, the
    index vector on the indices' second axis. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The table position update `e` goes to: `idx[e, 0]` read as a signed integer when that is in `[0, N)`, none
    otherwise. -/
def vecDst {E w : Nat} (N : Nat) (idx : IVec ⟨2, ![E, 1]⟩ w) (e : Fin E) : Option (Fin N) :=
  if h : 0 ≤ (idx (ix2 e (0 : Fin 1))).toInt ∧ (idx (ix2 e (0 : Fin 1))).toInt < N then
    some ⟨(idx (ix2 e (0 : Fin 1))).toInt.toNat, by omega⟩
  else none

variable {N E w : Nat} (wf : ScatterDims.WF ⟨1, ![N]⟩ ⟨2, ![E, 1]⟩ ⟨1, ![E]⟩ [] [0] [0] 1)

/-- The window starts at the position word, read signed. -/
theorem vecScatter_start (idx : IVec ⟨2, ![E, 1]⟩ w) (e : Fin E) :
    (vecScatterDims N E wf).start (ix1 e) idx (0 : Fin 1) = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The table's axis is inserted: its window coordinate is 0. -/
theorem vecScatter_window (e : Fin E) : (vecScatterDims N E wf).window (ix1 e) (0 : Fin 1) = 0 := by
  unfold ScatterDims.window
  rw [dif_neg (show (0 : Fin 1) ∉ (vecScatterDims N E wf).sKept by simp [ScatterDims.sKept, Shape.kept, List.mem_filter])]

/-- Where update `e` lands: at its position word when that is a position of the table, nowhere otherwise. -/
theorem vecScatter_resultIdx (idx : IVec ⟨2, ![E, 1]⟩ w) (e : Fin E) :
    (vecScatterDims N E wf).resultIdx? (ix1 e) idx = (vecDst N idx e).map ix1 := by
  have hs := vecScatter_start wf idx e
  have hw := vecScatter_window wf e
  unfold ScatterDims.resultIdx? vecDst
  by_cases h : 0 ≤ (idx (ix2 e (0 : Fin 1))).toInt ∧ (idx (ix2 e (0 : Fin 1))).toInt < N
  · have hall : ∀ a : Fin 1, 0 ≤ (vecScatterDims N E wf).start (ix1 e) idx a + ((vecScatterDims N E wf).window (ix1 e) a : Int) ∧
        (vecScatterDims N E wf).start (ix1 e) idx a + ((vecScatterDims N E wf).window (ix1 e) a : Int)
          < ((⟨1, ![N]⟩ : Shape).size a : Int) := by
      intro a
      match a with
      | ⟨0, _⟩ =>
        show 0 ≤ (vecScatterDims N E wf).start (ix1 e) idx (0 : Fin 1) + ((vecScatterDims N E wf).window (ix1 e) (0 : Fin 1) : Int) ∧
          (vecScatterDims N E wf).start (ix1 e) idx (0 : Fin 1) + ((vecScatterDims N E wf).window (ix1 e) (0 : Fin 1) : Int) < (N : Int)
        rw [hs, hw]; omega
    rw [dif_pos hall, dif_pos h]
    simp only [Option.map_some]
    congr 1
    funext a
    refine Fin.ext ?_
    match a with
    | ⟨0, _⟩ =>
      show ((vecScatterDims N E wf).start (ix1 e) idx (0 : Fin 1) + ((vecScatterDims N E wf).window (ix1 e) (0 : Fin 1) : Int)).toNat
        = (idx (ix2 e (0 : Fin 1))).toInt.toNat
      rw [hs, hw]; simp
  · have hnall : ¬ ∀ a : Fin 1, 0 ≤ (vecScatterDims N E wf).start (ix1 e) idx a + ((vecScatterDims N E wf).window (ix1 e) a : Int) ∧
        (vecScatterDims N E wf).start (ix1 e) idx a + ((vecScatterDims N E wf).window (ix1 e) a : Int)
          < ((⟨1, ![N]⟩ : Shape).size a : Int) := by
      intro hall
      have h0 := hall (0 : Fin 1)
      rw [hs, hw] at h0
      apply h
      have : ((⟨1, ![N]⟩ : Shape).size (0 : Fin 1) : Int) = (N : Int) := rfl
      rw [this] at h0
      omega
    rw [dif_neg hnall, dif_neg h]
    rfl

/-- Two one-axis indices given by coordinates are equal exactly when the coordinates are. -/
theorem ix1_eq_ix1 {n : Nat} (a a' : Fin n) : ix1 a = ix1 a' ↔ a = a' :=
  ⟨fun h => congrFun h 0, fun h => h ▸ rfl⟩

/-- The scatter with an additive combiner read at position `r`: the table's entry plus the updates at the positions
    whose position word is `r`. -/
theorem vecScatter_add_apply {α : Type} [AddCommMonoid α] (f : α → α → α) (hf : ∀ a b, f a b = a + b)
    (x : (⟨1, ![N]⟩ : Shape).Idx → α) (idx : IVec ⟨2, ![E, 1]⟩ w) (upd : (⟨1, ![E]⟩ : Shape).Idx → α) (r : Fin N) :
    Host.scatter (vecScatterDims N E wf) f x idx upd (ix1 r)
      = x (ix1 r) + ∑ e ∈ Finset.univ.filter (fun e : Fin E => vecDst N idx e = some r), upd (ix1 e) := by
  rw [ScatterSum.scatter_add_apply _ f hf]
  congr 1
  rw [Finset.sum_filter, PrefixSumRead.sum_idx1, Finset.sum_filter]
  refine Finset.sum_congr rfl fun e _ => ?_
  have key : ((vecScatterDims N E wf).resultIdx? (ix1 e) idx = some (ix1 r)) ↔ vecDst N idx e = some r := by
    rw [vecScatter_resultIdx]
    cases vecDst N idx e with
    | none => simp
    | some r' =>
      simp only [Option.map_some, Option.some.injEq]
      exact ix1_eq_ix1 r' r
  simp only [key]

end VecScatter
-- ==== Proof.LibRowGatherScatter.lean ====
/-
  TAKING ROWS OF A TABLE BY AN INDEX VECTOR, AND ADDING ROWS INTO A TABLE BY AN INDEX VECTOR, read at an index.

  For a table x of N rows and K columns and a vector idx of E integer row numbers (held as an E x 1 array of words of
  any width):

  * the gather whose dimension numbers keep the column axis as the one offset axis, collapse the row axis, map the one
    start-index component to the row axis and slice 1 x K — what H[idx] of a two-axis table is — has, at (e, c), the value
    x (clamp (idx e), c): the row number is read as a signed integer and clamped into [0, N - 1], the column is kept
    (rowGather_apply);

  * the scatter whose dimension numbers take the column axis as the one update window axis, insert the row axis and map
    the one index component to the row axis — what .at[idx].add(u) of a two-axis table is — sends update element (e, c)
    to table element (idx e, c) when 0 <= idx e < N, the row number read signed and NOT clamped, and drops it otherwise
    (rowDst, rowScatter_resultIdx); so the accumulating scatter at the extended reals is, at (r, c),
    x (r, c) + the sum of u (e, c) over the positions e whose row number is r (hostScatterAdd_row_apply).

  Last, a law of finite sums of reals seen in the extended reals: weighting rows by scalars and summing commutes with a
  matrix product, sum_e v e * (sum_k a e k * b k) = sum_k (sum_e v e * a e k) * b k, every term being a real
  (sum_mul_sum_coe_comm; coe_finset_sum is the coercion of a finite real sum).
-/
import Idealize.ShloMosaic.PureOps.Ideal.Laws
import Idealize.ShloMosaic.Lib.ValueIdx

noncomputable section

open scoped BigOperators

namespace Idealize.ShloMosaic.ValueIdx

open Idealize.ShloMosaic

/-! ## Rows of a table taken by an index vector -/

section RowGather
variable {α : Type}

/-- The gather dimension numbers of `x[idx]` for a table `x : [N, K]` and row numbers `idx : [E, 1]`, result `[E, K]`:
    offset axis the result's column axis, the row axis collapsed and the target of the one start-index component, index
    vector on the indices' second axis, slices `1 × K`; their conditions `wf` are decided on literal shapes. -/
abbrev rowGatherDims (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- THE GATHER READ AT `(e, c)`: the table at row `idx[e, 0]`, read signed and clamped into `[0, N − 1]`, and column `c`. -/
theorem rowGather_apply {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (c : Fin K) :
    Host.gather (rowGatherDims N E K wf) x idx (ix2 e c)
      = x (ix2 (⟨min (idx (ix2 e (0 : Fin 1))).toInt.toNat (N - 1), by omega⟩ : Fin N) c) := by
  have h0 : (rowGatherDims N E K wf).start (ix2 e c) idx (0 : Fin 2) + (rowGatherDims N E K wf).batchCoord (ix2 e c) (0 : Fin 2)
      + (rowGatherDims N E K wf).offCoord (ix2 e c) (0 : Fin 2) = min (idx (ix2 e (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E K wf).startIndexMap from List.mem_singleton.mpr rfl)]
    have hsi : (rowGatherDims N E K wf).siIdx (ix2 e c) ⟨List.idxOf (0 : Fin 2) (rowGatherDims N E K wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowGatherDims N E K wf).start (ix2 e c) idx (1 : Fin 2) + (rowGatherDims N E K wf).batchCoord (ix2 e c) (1 : Fin 2)
      + (rowGatherDims N E K wf).offCoord (ix2 e c) (1 : Fin 2) = c.val := by
    rw [GatherDims.batchCoord_eq_zero _ _ _ List.not_mem_nil]
    have hs : (rowGatherDims N E K wf).start (ix2 e c) idx (1 : Fin 2) = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl
  unfold Host.gather
  congr 1
  funext a
  refine Fin.ext ?_
  match a with
  | ⟨0, _⟩ => exact h0
  | ⟨1, _⟩ => exact h1

end RowGather

/-! ## Rows added into a table by an index vector -/

section RowScatter

/-- The scatter dimension numbers of `x.at[idx].add(u)` for a table `x : [N, K]`, row numbers `idx : [E, 1]` and updates
    `u : [E, K]`: update window axis the updates' column axis, the row axis inserted and the target of the one index
    component, index vector on the indices' second axis; their conditions `wf` are decided on literal shapes. -/
abbrev rowScatterDims (N E K : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- The table row update position `e` goes to: `idx[e, 0]` read as a signed integer when that is in `[0, N)`, none
    otherwise (no clamping: an update outside the table is dropped). -/
def rowDst {E w : Nat} (N : Nat) (idx : IVec ⟨2, ![E, 1]⟩ w) (e : Fin E) : Option (Fin N) :=
  if h : 0 ≤ (idx (ix2 e (0 : Fin 1))).toInt ∧ (idx (ix2 e (0 : Fin 1))).toInt < N then
    some ⟨(idx (ix2 e (0 : Fin 1))).toInt.toNat, by omega⟩
  else none

/-- On the row axis the window starts at the row number, read signed. -/
theorem rowScatter_start0 {N E K w : Nat} (wf : ScatterDims.WF ⟨2, ![N, K]⟩ ⟨2, ![E, 1]⟩ ⟨2, ![E, K]⟩ [1] [0] [0] 1)
    (idx : IVec ⟨2, ![E, 1]⟩ w) (e : Fin E) (c : Fin K) :
    (rowScatterDims N E K wf).start (ix2 e c) idx (0 : Fin 2) = (idx (ix2 e (0 : Fin 1))).toInt := by
  unfold ScatterDims.start
  rw [dif_pos (show (0 : Fin 2) ∈ (rowScatterDims N E K wf).scatterDimsToOperandDims from List.mem_singleton.mpr rfl)]
  have hsi : (rowScatterDims N E K wf).siIdx (ix2 e c) ⟨List.idxOf (0 : Fin 2) (rowScatterDims N E K wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem rowScatter_start1 {N E K w : Nat} (wf : ScatterDims.WF ⟨2, ![N, K]⟩ ⟨2, ![E, 1]⟩ ⟨2, ![E, K]⟩ [1] [0] [0] 1)
    (idx : IVec ⟨2, ![E, 1]⟩ w) (e : Fin E) (c : Fin K) :
    (rowScatterDims N E K wf).start (ix2 e c) idx (1 : Fin 2) = 0 := by
  unfold ScatterDims.start
  rw [dif_neg (show (1 : Fin 2) ∉ ([0] : List (Fin 2)) by decide)]

/-- On the row axis (inserted) the window coordinate is 0. -/
theorem rowScatter_window0 {N E K : Nat} (wf : ScatterDims.WF ⟨2, ![N, K]⟩ ⟨2, ![E, 1]⟩ ⟨2, ![E, K]⟩ [1] [0] [0] 1)
    (e : Fin E) (c : Fin K) :
    (rowScatterDims N E K wf).window (ix2 e c) (0 : Fin 2) = 0 := by
  unfold ScatterDims.window
  rw [dif_neg (show (0 : Fin 2) ∉ (rowScatterDims N E K wf).sKept by simp [ScatterDims.sKept, Shape.kept, List.mem_filter])]

/-- On the column axis the window coordinate is the update's column. -/
theorem rowScatter_window1 {N E K : Nat} (wf : ScatterDims.WF ⟨2, ![N, K]⟩ ⟨2, ![E, 1]⟩ ⟨2, ![E, K]⟩ [1] [0] [0] 1)
    (e : Fin E) (c : Fin K) :
    (rowScatterDims N E K wf).window (ix2 e c) (1 : Fin 2) = c.val := by
  unfold ScatterDims.window
  rw [dif_pos (show (1 : Fin 2) ∈ (rowScatterDims N E K wf).sKept by simp [ScatterDims.sKept, Shape.kept, List.mem_filter, List.mem_finRange])]
  rfl

/-- WHERE UPDATE ELEMENT `(e, c)` LANDS: at `(r, c)` when position `e`'s row number is a row `r` of the table, nowhere
    otherwise. -/
theorem rowScatter_resultIdx {N E K w : Nat} (wf : ScatterDims.WF ⟨2, ![N, K]⟩ ⟨2, ![E, 1]⟩ ⟨2, ![E, K]⟩ [1] [0] [0] 1)
    (idx : IVec ⟨2, ![E, 1]⟩ w) (e : Fin E) (c : Fin K) :
    (rowScatterDims N E K wf).resultIdx? (ix2 e c) idx = (rowDst N idx e).map (fun r => ix2 r c) := by
  have hs0 := rowScatter_start0 wf idx e c
  have hs1 := rowScatter_start1 wf idx e c
  have hw0 := rowScatter_window0 wf e c
  have hw1 := rowScatter_window1 wf e c
  have hc := c.isLt
  unfold ScatterDims.resultIdx? rowDst
  by_cases h : 0 ≤ (idx (ix2 e (0 : Fin 1))).toInt ∧ (idx (ix2 e (0 : Fin 1))).toInt < N
  · have hall : ∀ a : Fin 2, 0 ≤ (rowScatterDims N E K wf).start (ix2 e c) idx a + ((rowScatterDims N E K wf).window (ix2 e c) a : Int) ∧
        (rowScatterDims N E K wf).start (ix2 e c) idx a + ((rowScatterDims N E K wf).window (ix2 e c) a : Int)
          < ((⟨2, ![N, K]⟩ : Shape).size a : Int) := by
      intro a
      match a with
      | ⟨0, _⟩ =>
        show 0 ≤ (rowScatterDims N E K wf).start (ix2 e c) idx (0 : Fin 2) + ((rowScatterDims N E K wf).window (ix2 e c) (0 : Fin 2) : Int) ∧
          (rowScatterDims N E K wf).start (ix2 e c) idx (0 : Fin 2) + ((rowScatterDims N E K wf).window (ix2 e c) (0 : Fin 2) : Int) < (N : Int)
        rw [hs0, hw0]; omega
      | ⟨1, _⟩ =>
        show 0 ≤ (rowScatterDims N E K wf).start (ix2 e c) idx (1 : Fin 2) + ((rowScatterDims N E K wf).window (ix2 e c) (1 : Fin 2) : Int) ∧
          (rowScatterDims N E K wf).start (ix2 e c) idx (1 : Fin 2) + ((rowScatterDims N E K wf).window (ix2 e c) (1 : Fin 2) : Int) < (K : Int)
        rw [hs1, hw1]; omega
    rw [dif_pos hall, dif_pos h]
    simp only [Option.map_some]
    congr 1
    funext a
    refine Fin.ext ?_
    match a with
    | ⟨0, _⟩ =>
      show ((rowScatterDims N E K wf).start (ix2 e c) idx (0 : Fin 2) + ((rowScatterDims N E K wf).window (ix2 e c) (0 : Fin 2) : Int)).toNat
        = (idx (ix2 e (0 : Fin 1))).toInt.toNat
      rw [hs0, hw0]; simp
    | ⟨1, _⟩ =>
      show ((rowScatterDims N E K wf).start (ix2 e c) idx (1 : Fin 2) + ((rowScatterDims N E K wf).window (ix2 e c) (1 : Fin 2) : Int)).toNat
        = c.val
      rw [hs1, hw1]; simp
  · have hnall : ¬ ∀ a : Fin 2, 0 ≤ (rowScatterDims N E K wf).start (ix2 e c) idx a + ((rowScatterDims N E K wf).window (ix2 e c) a : Int) ∧
        (rowScatterDims N E K wf).start (ix2 e c) idx a + ((rowScatterDims N E K wf).window (ix2 e c) a : Int)
          < ((⟨2, ![N, K]⟩ : Shape).size a : Int) := by
      intro hall
      have h0 := hall (0 : Fin 2)
      rw [hs0, hw0] at h0
      apply h
      have : ((⟨2, ![N, K]⟩ : Shape).size (0 : Fin 2) : Int) = (N : Int) := rfl
      rw [this] at h0
      omega
    rw [dif_neg hnall, dif_neg h]
    rfl

end RowScatter

section RowScatterAdd

/-- Two rank-2 indices given by coordinates are equal exactly when the coordinates are. -/
theorem ix2_eq_ix2 {n0 n1 : Nat} (a a' : Fin n0) (b b' : Fin n1) : ix2 a b = ix2 a' b' ↔ a = a' ∧ b = b' := by
  constructor
  · intro h; exact ⟨congrFun h 0, congrFun h 1⟩
  · rintro ⟨rfl, rfl⟩; rfl

/-- THE ACCUMULATING SCATTER READ AT `(r, c)`: the table's element plus the updates' column-`c` elements at the positions
    whose row number is `r`. -/
theorem hostScatterAdd_row_apply {N E K w : Nat} (wf : ScatterDims.WF ⟨2, ![N, K]⟩ ⟨2, ![E, 1]⟩ ⟨2, ![E, K]⟩ [1] [0] [0] 1)
    (x : (⟨2, ![N, K]⟩ : Shape).Idx → EReal) (idx : IVec ⟨2, ![E, 1]⟩ w) (upd : (⟨2, ![E, K]⟩ : Shape).Idx → EReal)
    (r : Fin N) (c : Fin K) :
    Ideal.hostScatterAdd (rowScatterDims N E K wf) x idx upd (ix2 r c)
      = x (ix2 r c) + ∑ e ∈ Finset.univ.filter (fun e : Fin E => rowDst N idx e = some r), upd (ix2 e c) := by
  unfold Ideal.hostScatterAdd
  congr 1
  rw [Finset.sum_filter, sum_idx2, Finset.sum_filter]
  refine Finset.sum_congr rfl fun e _ => ?_
  have key : ∀ b : Fin K, ((rowScatterDims N E K wf).resultIdx? (ix2 e b) idx = some (ix2 r c)) ↔ (rowDst N idx e = some r ∧ b = c) := by
    intro b
    rw [rowScatter_resultIdx]
    cases rowDst N idx e with
    | none => simp
    | some r' =>
      simp only [Option.map_some, Option.some.injEq]
      exact ix2_eq_ix2 r' r b c
  simp only [key]
  by_cases hr : rowDst N idx e = some r
  · simp only [hr, true_and, if_true, Finset.sum_ite_eq', Finset.mem_univ]
  · simp only [hr, false_and, if_false, Finset.sum_const_zero]

end RowScatterAdd

/-! ## Weighting rows and summing commutes with a matrix product -/

section WeightedRows

/-- The coercion of a finite sum of reals is the sum of the coercions. -/
theorem coe_finset_sum {ι : Type*} (s : Finset ι) (f : ι → ℝ) : ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

/-- Rows `a e` weighted by reals `v e` and summed over `e ∈ s`, then multiplied into `b`, is the sum over `e ∈ s` of
    `v e` times the product of row `a e` with `b`: every term is a real, where the sums and products commute. -/
theorem sum_mul_sum_coe_comm {ι κ : Type*} [Fintype κ] (s : Finset ι) (v : ι → ℝ) (a : ι → κ → ℝ) (b : κ → ℝ) :
    (∑ e ∈ s, ((v e : ℝ) : EReal) * ∑ k, ((a e k : ℝ) : EReal) * ((b k : ℝ) : EReal))
      = ∑ k, (∑ e ∈ s, ((v e : ℝ) : EReal) * ((a e k : ℝ) : EReal)) * ((b k : ℝ) : EReal) := by
  simp only [← EReal.coe_mul, ← coe_finset_sum]
  congr 1
  simp only [Finset.mul_sum, Finset.sum_mul]
  rw [Finset.sum_comm]
  refine Finset.sum_congr rfl fun k _ => Finset.sum_congr rfl fun e _ => ?_
  ring

/-- The same with a leading `0 +` on each sum over `s`. -/
theorem zero_add_sum_mul_sum_coe_comm {ι κ : Type*} [Fintype κ] (s : Finset ι) (v : ι → ℝ) (a : ι → κ → ℝ) (b : κ → ℝ) :
    (0 + ∑ e ∈ s, ((v e : ℝ) : EReal) * ∑ k, ((a e k : ℝ) : EReal) * ((b k : ℝ) : EReal))
      = ∑ k, (0 + ∑ e ∈ s, ((v e : ℝ) : EReal) * ((a e k : ℝ) : EReal)) * ((b k : ℝ) : EReal) := by
  simp only [zero_add]
  exact sum_mul_sum_coe_comm s v a b

end WeightedRows

end Idealize.ShloMosaic.ValueIdx

end
-- ==== Proof.RefDegree.lean ====
/-
  THE REFERENCE'S DEGREES AND SCALE FACTORS, read at a node.

  Every position of the edge list carries a weight: on an edge the adjacency indicator, on a self-loop 1. The degree
  vector is the weights added into a zero vector at the destination numbers, so at node (g, j) it is
  0 + (Σ_i a(i, j) + 1): the 48 in-edges and the self-loop. That is a real number at least 1, so the reference's
  "deg^(-1/2) where deg > 0, else 0" is the inverse square root of the degree: for a positive real r,
  r^(-1/2) = (√r)⁻¹.
-/
import proofs.«134418_g103079215284_cont_sun_m_88_9_alg».proof.Proof.RefIndex
import proofs.«134418_g103079215284_cont_sun_m_88_9_alg».proof.Proof.Spec
import proofs.«134418_g103079215284_cont_sun_m_88_9_alg».proof.Proof.LibVecScatter
import proofs.«134418_g103079215284_cont_sun_m_88_9_alg».proof.Proof.LibRowGatherScatter

noncomputable section

open scoped BigOperators

namespace Cert.ReferenceIdeal.RefValue

open Cert.ReferenceIdeal Cert.ReferenceIdeal.Gen Cert.ReferenceIdeal.ReadP Cert.Gcn Idealize.ShloMosaic Idealize.ShloMosaic.ValueIdx

/-! ## Adding a vector of updates into a vector, at the extended reals -/

/-- The accumulating scatter into a one-axis table read at position r: the table's entry plus the updates at the
    positions whose number is r. -/
theorem hostScatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (r : Fin N) :
    Ideal.hostScatterAdd (VecScatter.vecScatterDims N E wf) x idx upd (ix1 r)
      = x (ix1 r) + ∑ e ∈ Finset.univ.filter (fun e : Fin E => VecScatter.vecDst N idx e = some r), upd (ix1 e) := by
  unfold Ideal.hostScatterAdd
  congr 1
  rw [Finset.sum_filter, PrefixSumRead.sum_idx1, Finset.sum_filter]
  refine Finset.sum_congr rfl fun e _ => ?_
  have key : ((VecScatter.vecScatterDims N E wf).resultIdx? (ix1 e) idx = some (ix1 r)) ↔ VecScatter.vecDst N idx e = some r := by
    rw [VecScatter.vecScatter_resultIdx]
    cases VecScatter.vecDst N idx e with
    | none => simp
    | some r' =>
      simp only [Option.map_some, Option.some.injEq]
      exact VecScatter.ix1_eq_ix1 r' r
  simp only [key]

/-- A position whose number, read signed, is node n lands on node n. -/
theorem vecDst_of_toInt {E : Nat} (idx : IVec ⟨2, ![E, 1]⟩ 32) (e : Fin E) (n : Fin 49152)
    (h : (idx (ix2 e (0 : Fin 1))).toInt = (n.val : Int)) : VecScatter.vecDst 49152 idx e = some n := by
  have hn := n.isLt
  unfold VecScatter.vecDst
  rw [dif_pos (by rw [h]; omega)]
  refine congrArg some (Fin.ext ?_)
  show (idx (ix2 e (0 : Fin 1))).toInt.toNat = n.val
  rw [h]
  simp

/-! ## The weights -/

/-- The weight of the edge i → j of graph g is the adjacency indicator. -/
theorem weight_edge (A : SA.Idx → EReal) (g : Fin 1024) (i j : Fin 48) :
    val_main_v25 (F := Ideal) A (ix1 (edgePos g i j)) = mask A g i j := by
  unfold val_main_v25
  rw [show edgePos g i j = (⟨(g.val * 48 + i.val) * 48 + j.val, by omega⟩ : Fin 2408448) from rfl,
    joined_fst _ _ _ (edgePos_lt g i j), val_main_v13_apply, val_main_v12_apply, val_main_v2_apply, val_main_v1_apply,
    val_main_cst_apply]
  have hidx : idx_main_v12 (ix1 (⟨(g.val * 48 + i.val) * 48 + j.val, edgePos_lt g i j⟩ : Fin 2359296)) = ix3 g i j := by
    funext a
    refine Fin.ext ?_
    match a with
    | ⟨0, _⟩ => show ((g.val * 48 + i.val) * 48 + j.val) / 2304 = g.val; omega
    | ⟨1, _⟩ => show ((g.val * 48 + i.val) * 48 + j.val) / 48 % 48 = i.val; omega
    | ⟨2, _⟩ => show ((g.val * 48 + i.val) * 48 + j.val) % 48 = j.val; omega
  rw [hidx]
  rfl

/-- The weight of a self-loop is 1. -/
theorem weight_loop (A : SA.Idx → EReal) (n : Fin 49152) :
    val_main_v25 (F := Ideal) A (ix1 (loopPos n)) = one := by
  unfold val_main_v25
  rw [joined_snd, val_main_v24_apply, val_main_cst_1_apply]
  rfl

/-! ## The degrees -/

/-- Updates added into a one-axis table over the nodes, at destination numbers that send every edge (g, i, j) to node
    (g, j) and every self-loop to its own node: node (g, j) ends at its entry plus its 48 in-edges' updates plus its
    self-loop's update. Stated over arbitrary tables, numbers and updates. -/
theorem scatter_at_node (wf : ScatterDims.WF ⟨1, ![49152]⟩ ⟨2, ![2408448, 1]⟩ ⟨1, ![2408448]⟩ [] [0] [0] 1)
    (x : (⟨1, ![49152]⟩ : Shape).Idx → EReal) (idx : IVec ⟨2, ![2408448, 1]⟩ 32)
    (upd : (⟨1, ![2408448]⟩ : Shape).Idx → EReal)
    (hE : ∀ g i j, (idx (ix2 (edgePos g i j) (0 : Fin 1))).toInt = ((node g j).val : Int))
    (hL : ∀ n : Fin 49152, (idx (ix2 (loopPos n) (0 : Fin 1))).toInt = (n.val : Int))
    (g : Fin 1024) (j : Fin 48) :
    Ideal.hostScatterAdd (VecScatter.vecScatterDims 49152 2408448 wf) x idx upd (ix1 (node g j))
      = x (ix1 (node g j)) + ((∑ i : Fin 48, upd (ix1 (edgePos g i j))) + upd (ix1 (loopPos (node g j)))) := by
  refine (hostScatterAdd_vec_apply wf x idx upd (node g j)).trans ?_
  exact congrArg (fun s => x (ix1 (node g j)) + s)
    (sum_landing (VecScatter.vecDst 49152 idx) (fun g i j => vecDst_of_toInt idx _ _ (hE g i j))
      (fun n => vecDst_of_toInt idx _ _ (hL n)) (fun e => upd (ix1 e)) g j)

/-- The printed scatter of the degree vector is the accumulating scatter into a one-axis table over the nodes. -/
theorem degree_scatter_eq (x : FVec Ideal S49152 .f32) (idx : IVec S2408448x1 32) (upd : FVec Ideal S2408448 .f32) :
    Host.scatterAdd (F := Ideal) (φ := .f32) scatter_S49152_S2408448x1_S2408448_n_0_0_1 x idx upd
      = Ideal.hostScatterAdd (VecScatter.vecScatterDims 49152 2408448 Facts₀.scatter_S49152_S2408448x1_S2408448_n_0_0_1_wf)
          x idx upd := rfl

/-- The degree vector is that scatter of the weights into a zero vector at the destination numbers. -/
theorem degree_stage_eq (A : SA.Idx → EReal) :
    val_main_v33 (F := Ideal) A = Host.scatterAdd (F := Ideal) (φ := .f32) scatter_S49152_S2408448x1_S2408448_n_0_0_1
      (val_main_v26 (F := Ideal)) (val_main_v32 (F := Ideal)) (val_main_v25 (F := Ideal) A) := rfl

/-- THE DEGREE VECTOR AT NODE (g, j): its in-edges' indicators and its self-loop's 1. -/
theorem degree_apply (A : SA.Idx → EReal) (g : Fin 1024) (j : Fin 48) :
    val_main_v33 (F := Ideal) A (ix1 (node g j)) = deg A g j := by
  rw [degree_stage_eq, degree_scatter_eq]
  refine (scatter_at_node Facts₀.scatter_S49152_S2408448x1_S2408448_n_0_0_1_wf (val_main_v26 (F := Ideal))
    (val_main_v32 (F := Ideal)) (val_main_v25 (F := Ideal) A) dstCol_edge dstCol_loop g j).trans ?_
  rw [val_main_v26_apply, val_main_cst_2_apply, weight_loop]
  simp only [weight_edge]
  show Ideal.ofBits .f32 0x00000000#32 + _ = _
  rw [Ideal.ofBits_zero_f32, zero_add]
  rfl

/-- A degree is a real number, at least 1. -/
theorem deg_real (A : SA.Idx → EReal) (g : Fin 1024) (j : Fin 48) :
    ∃ r : ℝ, 1 ≤ r ∧ deg A g j = ((r : ℝ) : EReal) := by
  refine ⟨(∑ i : Fin 48, ((Ideal.cmp .ogt (A (ix3 g i j)) half).toNat : ℝ)) + 1, ?_, ?_⟩
  · have h : 0 ≤ ∑ i : Fin 48, ((Ideal.cmp .ogt (A (ix3 g i j)) half).toNat : ℝ) :=
      Finset.sum_nonneg fun i _ => Nat.cast_nonneg _
    linarith
  · unfold deg mask
    rw [one_eq, EReal.coe_add, coe_finset_sum, EReal.coe_one]

/-- A scale factor is a nonnegative number. -/
theorem dinv_nonneg (A : SA.Idx → EReal) (g : Fin 1024) (j : Fin 48) : 0 ≤ dinv A g j := by
  obtain ⟨r, hr, hd⟩ := deg_real A g j
  have hpos : (0 : ℝ) < r := by linarith
  unfold dinv
  rw [hd, Ideal.rsqrt_coe, if_neg (not_lt.mpr hpos.le), if_neg hpos.ne']
  exact EReal.coe_nonneg.mpr (inv_nonneg.mpr (Real.sqrt_nonneg r))

/-! ## The scale factors -/

/-- The printed word of -1/2 is the number -1/2. -/
theorem negHalf_eq : Ideal.ofBits .f32 0xBF000000#32 = (((-(1 / 2) : ℝ)) : EReal) := by
  simp [Ideal.ofBits, Ideal.ieee]
  exact_mod_cast (by norm_num : (8388608 : ℝ) * ((2 : ℝ) ^ 24)⁻¹ = (2 : ℝ)⁻¹)

/-- For a real r ≥ 1: "r^(-1/2) where r > 0, else 0" is the inverse square root of r. -/
theorem where_pow_eq_rsqrt (r : ℝ) (hr : 1 ≤ r) :
    Scalar.select (Ideal.cmp .ogt ((r : ℝ) : EReal) (Ideal.ofBits .f32 0x00000000#32))
        (Ideal.pow ((r : ℝ) : EReal) (Ideal.ofBits .f32 0xBF000000#32)) (Ideal.ofBits .f32 0x00000000#32)
      = Ideal.rsqrt ((r : ℝ) : EReal) := by
  have hpos : (0 : ℝ) < r := by linarith
  rw [Ideal.ofBits_zero_f32, negHalf_eq]
  have hc : Ideal.cmp .ogt ((r : ℝ) : EReal) 0 = 1 := by simp [Ideal.cmp, hpos]
  rw [hc]
  show Ideal.pow ((r : ℝ) : EReal) (((-(1 / 2) : ℝ)) : EReal) = _
  rw [Ideal.rsqrt_coe, if_neg (not_lt.mpr hpos.le), if_neg hpos.ne']
  show ((Real.rpow r (-(1 / 2)) : ℝ) : EReal) = _
  congr 1
  show r ^ (-(1 / 2 : ℝ)) = _
  rw [Real.rpow_neg hpos.le, Real.sqrt_eq_rpow]

/-- THE SCALE VECTOR AT NODE (g, j) is the inverse square root of the degree. -/
theorem scale_apply (A : SA.Idx → EReal) (g : Fin 1024) (j : Fin 48) :
    val_main_v38 (F := Ideal) A (ix1 (node g j)) = dinv A g j := by
  rw [val_main_v38_apply, val_main_v35_apply, val_main_v37_apply, degree_apply, val_main_v34_apply, val_main_cst_5_apply,
    val_main_v36_apply, val_main_cst_6_apply, val_main_call0_v1_apply, val_main_call0_v0_apply, val_main_cst_7_apply]
  obtain ⟨r, hr, hd⟩ := deg_real A g j
  unfold dinv
  rw [hd]
  exact where_pow_eq_rsqrt r hr

end Cert.ReferenceIdeal.RefValue

end
-- ==== Proof.SelfLoopFold.lean ====
/-
  FOLDING THE SELF-LOOP INTO THE DIAGONAL.

  A node j collects, over its sources i, the feature Y i weighted by s i · a i · s j, and, from its self-loop, its own
  feature weighted by s j · 1 · s j. With nonnegative indicators a and nonnegative scale factors s this is one sum with
  the coefficient ((a i + [i = j]) · s i) · s j:

      Σ_i Y i · ((s i · a i) · s j) + Y j · ((s j · 1) · s j) = Σ_i (((a i + [i = j]) · s i) · s j) · Y i.

  On the extended reals a product distributes over a sum of two NONNEGATIVE terms whatever the other factor is, so
  nothing is asked of the features Y: they may be infinite. The rest is commutativity and associativity of the
  product, and 0 · x = 0 off the diagonal.
-/
import Idealize.ShloMosaic.PureOps.Ideal

noncomputable section

open scoped BigOperators

namespace Cert.Gcn

/-- The self-loop term folded into the diagonal of the coefficient. -/
theorem selfloop_fold {n : ℕ} (a s Y : Fin n → EReal) (j : Fin n) (ha : ∀ i, 0 ≤ a i) (hs : ∀ i, 0 ≤ s i) :
    (∑ i, Y i * ((s i * a i) * s j)) + Y j * ((s j * 1) * s j)
      = ∑ i, (((a i + (if i = j then (1 : EReal) else 0)) * s i) * s j) * Y i := by
  have step : ∀ i, (((a i + (if i = j then (1 : EReal) else 0)) * s i) * s j) * Y i
      = Y i * ((s i * a i) * s j) + (if i = j then Y j * ((s j * 1) * s j) else 0) := by
    intro i
    have he : (0 : EReal) ≤ (if i = j then (1 : EReal) else 0) := by split_ifs <;> simp
    rw [EReal.right_distrib_of_nonneg (ha i) he,
      EReal.right_distrib_of_nonneg (mul_nonneg (ha i) (hs i)) (mul_nonneg he (hs i)),
      EReal.right_distrib_of_nonneg (mul_nonneg (mul_nonneg (ha i) (hs i)) (hs j))
        (mul_nonneg (mul_nonneg he (hs i)) (hs j))]
    congr 1
    · ac_rfl
    · by_cases h : i = j
      · subst h
        simp only [if_true]
        ac_rfl
      · simp only [if_neg h, zero_mul]
  simp only [step]
  rw [Finset.sum_add_distrib]
  congr 1
  simp

end Cert.Gcn

end
-- ==== Proof.LibVecGather.lean ====
/-
  READING A ONE-AXIS TABLE BY AN INDEX VECTOR, THE RECIPROCAL SQUARE ROOT OF A POSITIVE EXTENDED REAL, A NONNEGATIVE REAL
  FACTOR THROUGH A FINITE SUM, AND THE WRAP OF A NEGATIVE INDEX, each read at an index.

  * For a table x of N entries and a vector idx of E integer positions (held as an E x 1 array of words of any width),
    the gather whose dimension numbers have no offset axis, collapse the one table axis, map the one start-index
    component to it and slice 1 — what x[idx] of a one-axis table is — has, at e, the value x (clamp (idx e)): the
    position is read as a signed integer and clamped into [0, N - 1] (vecGather_apply).

  * The reciprocal square root of a positive extended real is a nonnegative real: 1 / sqrt r for a positive real r, and
    0 at +infinity (rsqrt_pos_nonneg_real).

  * A nonnegative real factor distributes over a finite sum of extended reals, whatever the terms are: the only failure
    of distributivity in the extended reals needs an infinite or a negative factor (coe_nonneg_mul_finset_sum).

  * The wrap of a possibly negative position, "r if r >= 0, r + N otherwise", written lane by lane as a select on the
    signed comparison r < 0 between r + N and r with the two constants broadcast from scalars, reads at a lane i as
    r i + N when r i is negative as a signed integer and as r i otherwise (wrapNeg_apply); on a lane whose position is
    nonnegative it is the position itself (wrapNeg_apply_of_nonneg).
-/
import Idealize.ShloMosaic.PureOps.Ideal.Laws
import Idealize.ShloMosaic.Lib.ValueIdx

noncomputable section

open scoped BigOperators

namespace Idealize.ShloMosaic.ValueIdx

open Idealize.ShloMosaic

/-! ## Entries of a one-axis table taken by an index vector -/

section VecGather
variable {α : Type}

/-- The gather dimension numbers of `x[idx]` for a table `x : [N]` and positions `idx : [E, 1]`, result `[E]`: no offset
    axis, the one table axis collapsed and the target of the one start-index component, index vector on the indices'
    second axis, slices of size `1`; their conditions `wf` are decided on literal shapes. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT `e`: the table at position `idx[e, 0]`, read signed and clamped into `[0, N − 1]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end VecGather

/-! ## The reciprocal square root of a positive extended real -/

section Rsqrt

/-- The reciprocal square root of a positive extended real is a nonnegative real: `(√r)⁻¹` at a positive real `r`, `0` at
    `⊤`. -/
theorem rsqrt_pos_nonneg_real (x : EReal) (hx : 0 < x) : ∃ r : ℝ, 0 ≤ r ∧ Ideal.rsqrt x = ((r : ℝ) : EReal) := by
  induction x using EReal.rec with
  | bot => exact absurd hx (by simp)
  | top => exact ⟨0, le_refl _, by simp⟩
  | coe r =>
    have hr : 0 < r := by exact_mod_cast hx
    refine ⟨(Real.sqrt r)⁻¹, inv_nonneg.mpr (Real.sqrt_nonneg r), ?_⟩
    rw [Ideal.rsqrt_coe, if_neg (not_lt.mpr hr.le), if_neg hr.ne']

end Rsqrt

/-! ## A nonnegative real factor through a finite sum -/

section CoeMulSum

/-- A nonnegative real factor distributes over a finite sum of extended reals. -/
theorem coe_nonneg_mul_finset_sum (r : ℝ) (hr : 0 ≤ r) {ι : Type*} (s : Finset ι) (f : ι → EReal) :
    ((r : ℝ) : EReal) * ∑ i ∈ s, f i = ∑ i ∈ s, ((r : ℝ) : EReal) * f i := by
  classical
  induction s using Finset.induction_on with
  | empty => simp
  | insert i s hi ih =>
    rw [Finset.sum_insert hi, Finset.sum_insert hi,
      EReal.left_distrib_of_nonneg_of_ne_top (EReal.coe_nonneg.mpr hr) (EReal.coe_ne_top r), ih]

end CoeMulSum

/-! ## The wrap of a negative position -/

section WrapNeg

/-- THE WRAP READ AT A LANE: the select, on the signed comparison `r < 0`, between `r + N` and `r`, the constants `0` and
    `N` broadcast from scalars, is `r i + N` on a lane whose position is negative as a signed integer and `r i`
    elsewhere. -/
theorem wrapNeg_apply {S : Shape} {w : Nat} (h : (⟨0, ![]⟩ : Shape).BroadcastsInDim S ![]) (N : Nat) (r : IVec S w)
    (i : S.Idx) :
    select (cmpi .slt r (broadcastInDim S ![] h (constantI ⟨0, ![]⟩ w 0#w)))
        (addi r (broadcastInDim S ![] h (constantI ⟨0, ![]⟩ w (BitVec.ofNat w N)))) r i
      = if (r i).toInt < 0 then r i + BitVec.ofNat w N else r i := by
  show Scalar.select (IntOp.cmpi .slt (r i) (broadcastInDim S ![] h (constantI ⟨0, ![]⟩ w 0#w) i))
      (IntOp.addi (r i) (broadcastInDim S ![] h (constantI ⟨0, ![]⟩ w (BitVec.ofNat w N)) i)) (r i) = _
  have hb : ∀ x : (⟨0, ![]⟩ : Shape).Idx → BitVec w, broadcastInDim S ![] h x i = x ix0 := fun x => by
    unfold broadcastInDim; exact congrArg x (funext fun a => a.elim0)
  rw [hb, hb]
  unfold constantI Scalar.select IntOp.cmpi IntOp.addi
  simp only [BitVec.slt, BitVec.toInt_zero]
  by_cases hneg : (r i).toInt < 0
  · simp [hneg]
  · simp [hneg]

/-- On a lane whose position is nonnegative as a signed integer the wrap is the position itself. -/
theorem wrapNeg_apply_of_nonneg {S : Shape} {w : Nat} (h : (⟨0, ![]⟩ : Shape).BroadcastsInDim S ![]) (N : Nat)
    (r : IVec S w) (i : S.Idx) (hi : 0 ≤ (r i).toInt) :
    select (cmpi .slt r (broadcastInDim S ![] h (constantI ⟨0, ![]⟩ w 0#w)))
        (addi r (broadcastInDim S ![] h (constantI ⟨0, ![]⟩ w (BitVec.ofNat w N)))) r i
      = r i := by
  rw [wrapNeg_apply, if_neg (not_lt.mpr hi)]

end WrapNeg

end Idealize.ShloMosaic.ValueIdx

end
-- ==== Proof.RefAggregate.lean ====
/-
  ONE AGGREGATION OF THE REFERENCE, read at a node.

  Each position of the edge list carries the normalised weight s(source) · weight · s(destination). The reference takes
  the rows of a table Y at the source numbers, scales each by its position's normalised weight, and adds them into a
  zero table at the destination numbers. At node (g, j) the positions that land are the 48 edges (g, i, j) and the
  node's self-loop, so the entry is

      0 + ( Σ_i Y(g·48 + i, k) · ((s(i) · a(i, j)) · s(j)) + Y(g·48 + j, k) · ((s(j) · 1) · s(j)) ),

  which is Σ_i coef(i, j) · Y(g·48 + i, k), the self-loop folded into the diagonal.
-/
import proofs.«134418_g103079215284_cont_sun_m_88_9_alg».proof.Proof.RefDegree
import proofs.«134418_g103079215284_cont_sun_m_88_9_alg».proof.Proof.SelfLoopFold
import proofs.«134418_g103079215284_cont_sun_m_88_9_alg».proof.Proof.LibVecGather

noncomputable section

open scoped BigOperators

namespace Cert.ReferenceIdeal.RefValue

open Cert.ReferenceIdeal Cert.ReferenceIdeal.Gen Cert.ReferenceIdeal.ReadP Cert.Gcn Idealize.ShloMosaic Idealize.ShloMosaic.ValueIdx

/-- A number that, read signed, is node n is left alone by a gather's clamp into the table. -/
theorem clamp_node (v : BitVec 32) (n : Fin 49152) (h : v.toInt = (n.val : Int))
    (pf : min v.toInt.toNat (49152 - 1) < 49152) :
    (⟨min v.toInt.toNat (49152 - 1), pf⟩ : Fin 49152) = n := by
  have hn := n.isLt
  refine Fin.ext ?_
  show min v.toInt.toNat (49152 - 1) = n.val
  rw [h]
  simp
  omega

/-- A position whose number, read signed, is node n lands on row n of a table of 49152 rows. -/
theorem rowDst_of_toInt {E : Nat} (idx : IVec ⟨2, ![E, 1]⟩ 32) (e : Fin E) (n : Fin 49152)
    (h : (idx (ix2 e (0 : Fin 1))).toInt = (n.val : Int)) : rowDst 49152 idx e = some n := by
  have hn := n.isLt
  unfold rowDst
  rw [dif_pos (by rw [h]; omega)]
  refine congrArg some (Fin.ext ?_)
  show (idx (ix2 e (0 : Fin 1))).toInt.toNat = n.val
  rw [h]
  simp

/-- The destination column is computed three times in a layer, by the same operations. -/
theorem dstCol52 : val_main_v52 (F := Ideal) = val_main_v32 (F := Ideal) := rfl
theorem dstCol71 : val_main_v71 (F := Ideal) = val_main_v32 (F := Ideal) := rfl
/-- The source column is computed twice in a layer, by the same operations. -/
theorem srcCol60 : val_main_v60 (F := Ideal) = val_main_v44 (F := Ideal) := rfl

/-- THE NORMALISED WEIGHT of a position whose source is node s and whose destination is node d. -/
theorem norm_at (A : SA.Idx → EReal) (e : Fin 2408448) (s d : Fin 49152)
    (hs : (val_main_v44 (F := Ideal) (ix2 e (0 : Fin 1))).toInt = (s.val : Int))
    (hd : (val_main_v32 (F := Ideal) (ix2 e (0 : Fin 1))).toInt = (d.val : Int)) :
    val_main_v54 (F := Ideal) A (ix1 e)
      = (val_main_v38 (F := Ideal) A (ix1 s) * val_main_v25 (F := Ideal) A (ix1 e)) * val_main_v38 (F := Ideal) A (ix1 d) := by
  rw [val_main_v54_apply, val_main_v46_apply]
  unfold val_main_v45 val_main_v53
  rw [dstCol52,
    show gather_S49152_S2408448x1_S2408448_n_0_n_n_0_1_1
      = vecGatherDims 49152 2408448 Facts₀.gather_S49152_S2408448x1_S2408448_n_0_n_n_0_1_1_wf from rfl,
    vecGather_apply (by norm_num) _ (val_main_v38 (F := Ideal) A) (val_main_v44 (F := Ideal)) e,
    vecGather_apply (by norm_num) _ (val_main_v38 (F := Ideal) A) (val_main_v32 (F := Ideal)) e,
    clamp_node _ s hs, clamp_node _ d hd]
  rfl

/-- On the edge i → j of graph g: s(i) · a(i, j) · s(j). -/
theorem norm_edge (A : SA.Idx → EReal) (g : Fin 1024) (i j : Fin 48) :
    val_main_v54 (F := Ideal) A (ix1 (edgePos g i j)) = (dinv A g i * mask A g i j) * dinv A g j := by
  rw [norm_at A _ (node g i) (node g j) (srcCol_edge g i j) (dstCol_edge g i j), scale_apply, scale_apply, weight_edge]

/-- On the self-loop of node (g, j): s(j) · 1 · s(j). -/
theorem norm_loop (A : SA.Idx → EReal) (g : Fin 1024) (j : Fin 48) :
    val_main_v54 (F := Ideal) A (ix1 (loopPos (node g j))) = (dinv A g j * one) * dinv A g j := by
  rw [norm_at A _ (node g j) (node g j) (srcCol_loop _) (dstCol_loop _), scale_apply, weight_loop]

/-- One aggregation as the reference spells it: the rows of Y at the source numbers, each scaled by its position's
    normalised weight, added into a zero table at the destination numbers. -/
def aggRef (A : SA.Idx → EReal) (Y : FVec Ideal S49152x64 .f32) : FVec Ideal S49152x64 .f32 :=
  Host.scatterAdd (F := Ideal) scatter_S49152x64_S2408448x1_S2408448x64_1_0_0_1 (val_main_v65 (F := Ideal)) (val_main_v71 (F := Ideal))
    (mulf (Host.gather gather_S49152x64_S2408448x1_S2408448x64_1_0_n_n_0_1_164 Y (val_main_v60 (F := Ideal)))
      (val_main_v63 (F := Ideal) A))

/-- The scaled row of a position whose source is node s, at column k. -/
theorem scaled_row_at (A : SA.Idx → EReal) (Y : FVec Ideal S49152x64 .f32) (e : Fin 2408448) (s : Fin 49152) (k : Fin 64)
    (hs : (val_main_v44 (F := Ideal) (ix2 e (0 : Fin 1))).toInt = (s.val : Int)) :
    mulf (Host.gather gather_S49152x64_S2408448x1_S2408448x64_1_0_n_n_0_1_164 Y (val_main_v60 (F := Ideal)))
        (val_main_v63 (F := Ideal) A) (ix2 e k)
      = (Y (ix2 s k) : EReal) * val_main_v54 (F := Ideal) A (ix1 e) := by
  show FloatOps.mulf (Host.gather gather_S49152x64_S2408448x1_S2408448x64_1_0_n_n_0_1_164 Y (val_main_v60 (F := Ideal)) (ix2 e k))
      (val_main_v63 (F := Ideal) A (ix2 e k)) = _
  rw [srcCol60,
    show gather_S49152x64_S2408448x1_S2408448x64_1_0_n_n_0_1_164
      = rowGatherDims 49152 2408448 64 Facts₀.gather_S49152x64_S2408448x1_S2408448x64_1_0_n_n_0_1_164_wf from rfl,
    rowGather_apply (by norm_num) _ Y (val_main_v44 (F := Ideal)) e k, clamp_node _ s hs,
    val_main_v63_apply, val_main_v62_apply,
    show idx_main_v62 (idx_main_v63 (ix2 e k)) = ix1 e from funext fun a => match a with | ⟨0, _⟩ => rfl]
  rfl

/-- Rows of updates added into a table over the nodes, at destination numbers that send every edge (g, i, j) to node
    (g, j) and every self-loop to its own node: row (g, j), column k, ends at its entry plus its 48 in-edges' updates
    plus its self-loop's update, all at column k. Stated over arbitrary tables, numbers and updates. -/
theorem scatter_rows_at_node
    (wf : ScatterDims.WF ⟨2, ![49152, 64]⟩ ⟨2, ![2408448, 1]⟩ ⟨2, ![2408448, 64]⟩ [1] [0] [0] 1)
    (x : (⟨2, ![49152, 64]⟩ : Shape).Idx → EReal) (idx : IVec ⟨2, ![2408448, 1]⟩ 32)
    (upd : (⟨2, ![2408448, 64]⟩ : Shape).Idx → EReal)
    (hE : ∀ g i j, (idx (ix2 (edgePos g i j) (0 : Fin 1))).toInt = ((node g j).val : Int))
    (hL : ∀ n : Fin 49152, (idx (ix2 (loopPos n) (0 : Fin 1))).toInt = (n.val : Int))
    (g : Fin 1024) (j : Fin 48) (k : Fin 64) :
    Ideal.hostScatterAdd (rowScatterDims 49152 2408448 64 wf) x idx upd (ix2 (node g j) k)
      = x (ix2 (node g j) k)
        + ((∑ i : Fin 48, upd (ix2 (edgePos g i j) k)) + upd (ix2 (loopPos (node g j)) k)) := by
  refine (hostScatterAdd_row_apply wf x idx upd (node g j) k).trans ?_
  exact congrArg (fun s => x (ix2 (node g j) k) + s)
    (sum_landing (rowDst 49152 idx) (fun g i j => rowDst_of_toInt idx _ _ (hE g i j))
      (fun n => rowDst_of_toInt idx _ _ (hL n)) (fun e => upd (ix2 e k)) g j)

/-- The printed scatter of an aggregation is the accumulating scatter of rows into a table over the nodes. -/
theorem agg_scatter_eq (x : FVec Ideal S49152x64 .f32) (idx : IVec S2408448x1 32) (upd : FVec Ideal S2408448x64 .f32) :
    Host.scatterAdd (F := Ideal) (φ := .f32) scatter_S49152x64_S2408448x1_S2408448x64_1_0_0_1 x idx upd
      = Ideal.hostScatterAdd
          (rowScatterDims 49152 2408448 64 Facts₀.scatter_S49152x64_S2408448x1_S2408448x64_1_0_0_1_wf) x idx upd := rfl

/-- THE REFERENCE'S AGGREGATION AT NODE (g, j), COLUMN k: the coefficients of the graph's 48 nodes against their rows. -/
theorem aggRef_apply (A : SA.Idx → EReal) (Y : FVec Ideal S49152x64 .f32) (g : Fin 1024) (j : Fin 48) (k : Fin 64) :
    aggRef A Y (ix2 (node g j) k) = ∑ i : Fin 48, coef A g i j * (Y (ix2 (node g i) k) : EReal) := by
  have hedge : ∀ i : Fin 48,
      mulf (Host.gather gather_S49152x64_S2408448x1_S2408448x64_1_0_n_n_0_1_164 Y (val_main_v60 (F := Ideal))) (val_main_v63 (F := Ideal) A) (ix2 (edgePos g i j) k)
        = (Y (ix2 (node g i) k) : EReal) * ((dinv A g i * mask A g i j) * dinv A g j) := fun i => by
    rw [scaled_row_at A Y (edgePos g i j) (node g i) k (srcCol_edge g i j), norm_edge]
  have hloop :
      mulf (Host.gather gather_S49152x64_S2408448x1_S2408448x64_1_0_n_n_0_1_164 Y (val_main_v60 (F := Ideal))) (val_main_v63 (F := Ideal) A) (ix2 (loopPos (node g j)) k)
        = (Y (ix2 (node g j) k) : EReal) * ((dinv A g j * 1) * dinv A g j) := by
    rw [scaled_row_at A Y (loopPos (node g j)) (node g j) k (srcCol_loop (node g j)), norm_loop, one_eq]
  unfold aggRef
  rw [agg_scatter_eq, dstCol71]
  refine (scatter_rows_at_node Facts₀.scatter_S49152x64_S2408448x1_S2408448x64_1_0_0_1_wf (val_main_v65 (F := Ideal))
    (val_main_v32 (F := Ideal)) (mulf (Host.gather gather_S49152x64_S2408448x1_S2408448x64_1_0_n_n_0_1_164 Y (val_main_v60 (F := Ideal))) (val_main_v63 (F := Ideal) A)) dstCol_edge dstCol_loop g j k).trans ?_
  rw [hloop, Finset.sum_congr rfl (fun i _ => hedge i), val_main_v65_apply, val_main_cst_14_apply]
  show Ideal.ofBits .f32 0x00000000#32 + _ = _
  rw [Ideal.ofBits_zero_f32, zero_add,
    selfloop_fold (fun i => mask A g i j) (fun i => dinv A g i) (fun i => (Y (ix2 (node g i) k) : EReal)) j
      (fun i => mask_nonneg A g i j) (fun i => dinv_nonneg A g i)]
  rfl

end Cert.ReferenceIdeal.RefValue

end
-- ==== Proof.RefLayers.lean ====
/-
  THE REFERENCE'S RESULT IS THE TWO-LAYER GRAPH CONVOLUTION.

  Both layers are the same aggregation applied to a table: the first to X · W1 (the node features flattened to 49152
  rows), the second to hidden · W2, with the same source and destination numbers, weights, degrees and scale factors
  recomputed by the same operations. Read at node g·48 + j: the first layer plus its bias, rectified, is the hidden
  layer of the specification; the second layer plus its bias, recast to [1024, 48, 64], is its output.
-/
import proofs.«134418_g103079215284_cont_sun_m_88_9_alg».proof.Proof.RefAggregate
import proofs.«134418_g103079215284_cont_sun_m_88_9_alg».proof.Proof.RefRunPatched

noncomputable section

open scoped BigOperators

namespace Cert.ReferenceIdeal.RefValue

open Cert.ReferenceIdeal Cert.ReferenceIdeal.Gen Cert.ReferenceIdeal.ReadP Cert.Gcn Idealize.ShloMosaic Idealize.ShloMosaic.ValueIdx Idealize.ShloMosaic.TcCoe Idealize.SL.Sem

/-- The first layer's aggregation is the aggregation of X · W1. -/
theorem layer1_eq (X : (⟨S1024x48x64, .f32⟩ : BufTy).Contents (Elt Ideal)) (A : (⟨S1024x48x48, .f32⟩ : BufTy).Contents (Elt Ideal)) (W1 : (⟨S64x64, .f32⟩ : BufTy).Contents (Elt Ideal)) :
    val_main_v72 (F := Ideal) X A W1 = aggRef A (val_main_v20 (F := Ideal) X W1) := rfl

/-- The second layer's aggregation is the same aggregation, of hidden · W2: its numbers, weights and scale factors are
    computed again by the same operations. -/
theorem layer2_eq (X : (⟨S1024x48x64, .f32⟩ : BufTy).Contents (Elt Ideal)) (A : (⟨S1024x48x48, .f32⟩ : BufTy).Contents (Elt Ideal)) (W1 : (⟨S64x64, .f32⟩ : BufTy).Contents (Elt Ideal)) (b1 : (⟨S64, .f32⟩ : BufTy).Contents (Elt Ideal))
    (W2 : (⟨S64x64, .f32⟩ : BufTy).Contents (Elt Ideal)) :
    val_main_v129 (F := Ideal) X A W1 b1 W2 = aggRef A (val_main_v77 (F := Ideal) X A W1 b1 W2) := rfl

/-- X · W1 at node (g, i), column l. -/
theorem lin1_apply (X : (⟨S1024x48x64, .f32⟩ : BufTy).Contents (Elt Ideal)) (W1 : (⟨S64x64, .f32⟩ : BufTy).Contents (Elt Ideal)) (g : Fin 1024) (i : Fin 48) (l : Fin 64) :
    val_main_v20 (F := Ideal) X W1 (ix2 (node g i) l) = lin (fun g i d => X (ix3 g i d)) W1 g i l := by
  rw [val_main_v20_apply]
  unfold lin
  refine Finset.sum_congr rfl fun d _ => ?_
  rw [val_main_v0_apply]
  have h0 : idx_main_v0 (lidx_main_v20 (ix2 (node g i) l) d) = ix3 g i d := by
    funext a
    refine Fin.ext ?_
    match a with
    | ⟨0, _⟩ => show ((g.val * 48 + i.val) * 64 + d.val) / 3072 = g.val; omega
    | ⟨1, _⟩ => show ((g.val * 48 + i.val) * 64 + d.val) / 64 % 48 = i.val; omega
    | ⟨2, _⟩ => show ((g.val * 48 + i.val) * 64 + d.val) % 64 = d.val; omega
  have h1 : ridx_main_v20 (ix2 (node g i) l) d = ix2 d l :=
    funext fun a => match a with | ⟨0, _⟩ => rfl | ⟨1, _⟩ => rfl
  rw [h0, h1]

/-- The rectified first layer at node (g, j), column l, is the specification's hidden layer. -/
theorem hidden_apply (X : (⟨S1024x48x64, .f32⟩ : BufTy).Contents (Elt Ideal)) (A : (⟨S1024x48x48, .f32⟩ : BufTy).Contents (Elt Ideal)) (W1 : (⟨S64x64, .f32⟩ : BufTy).Contents (Elt Ideal)) (b1 : (⟨S64, .f32⟩ : BufTy).Contents (Elt Ideal))
    (g : Fin 1024) (j : Fin 48) (l : Fin 64) :
    val_main_v76 (F := Ideal) X A W1 b1 (ix2 (node g j) l) = hidden X A W1 b1 g j l := by
  rw [val_main_v76_apply, val_main_v75_apply, layer1_eq, aggRef_apply, val_main_v74_apply, val_main_v73_apply,
    val_main_call1_v0_apply, val_main_call1_cst_apply]
  simp only [lin1_apply]
  have hb : idx_main_v73 (idx_main_v74 (ix2 (node g j) l)) = ix1 l := funext fun a => match a with | ⟨0, _⟩ => rfl
  rw [hb]
  rfl

/-- hidden · W2 at node (g, i), column k. -/
theorem lin2_apply (X : (⟨S1024x48x64, .f32⟩ : BufTy).Contents (Elt Ideal)) (A : (⟨S1024x48x48, .f32⟩ : BufTy).Contents (Elt Ideal)) (W1 : (⟨S64x64, .f32⟩ : BufTy).Contents (Elt Ideal)) (b1 : (⟨S64, .f32⟩ : BufTy).Contents (Elt Ideal))
    (W2 : (⟨S64x64, .f32⟩ : BufTy).Contents (Elt Ideal)) (g : Fin 1024) (i : Fin 48) (k : Fin 64) :
    val_main_v77 (F := Ideal) X A W1 b1 W2 (ix2 (node g i) k) = lin (hidden X A W1 b1) W2 g i k := by
  rw [val_main_v77_apply]
  unfold lin
  refine Finset.sum_congr rfl fun l _ => ?_
  have h0 : lidx_main_v77 (ix2 (node g i) k) l = ix2 (node g i) l :=
    funext fun a => match a with | ⟨0, _⟩ => rfl | ⟨1, _⟩ => rfl
  have h1 : ridx_main_v77 (ix2 (node g i) k) l = ix2 l k :=
    funext fun a => match a with | ⟨0, _⟩ => rfl | ⟨1, _⟩ => rfl
  rw [h0, h1, hidden_apply]

/-- THE REFERENCE'S RESULT ARRAY IS THE SPECIFICATION'S OUTPUT. -/
theorem result_eq (X : (⟨S1024x48x64, .f32⟩ : BufTy).Contents (Elt Ideal)) (A : (⟨S1024x48x48, .f32⟩ : BufTy).Contents (Elt Ideal)) (W1 : (⟨S64x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal)) :
    val_main_v133 (F := Ideal) X A W1 b1 W2 b2 = Cert.Gcn.out X A W1 b1 W2 b2 := by
  funext o
  obtain ⟨g, j, k, rfl⟩ : ∃ (g : Fin 1024) (j : Fin 48) (k : Fin 64), o = ix3 g j k := ⟨o 0, o 1, o 2, eq_ix3 o⟩
  rw [val_main_v133_apply]
  have hi : idx_main_v133 (ix3 g j k) = ix2 (node g j) k := by
    funext a
    refine Fin.ext ?_
    match a with
    | ⟨0, _⟩ => show ((g.val * 48 + j.val) * 64 + k.val) / 64 = g.val * 48 + j.val; omega
    | ⟨1, _⟩ => show ((g.val * 48 + j.val) * 64 + k.val) % 64 = k.val; omega
  rw [hi, val_main_v132_apply, layer2_eq, aggRef_apply, val_main_v131_apply, val_main_v130_apply]
  simp only [lin2_apply]
  have hb : idx_main_v130 (idx_main_v131 (ix2 (node g j) k)) = ix1 k := funext fun a => match a with | ⟨0, _⟩ => rfl
  rw [hb]
  rfl

/-- The term the run names for the result is the last stage of the program. -/
theorem res_eq (m : (ℓ : Loc nD τ sig) → Buf (Elt Ideal) ℓ) (c : Dev nD) :
    Cert.ReferenceIdeal.ValueP.res_main_v133 (F := Ideal) m c
      = val_main_v133 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v133; rfl

end Cert.ReferenceIdeal.RefValue

end
-- ==== Proof.lean ====
/-
  A two-layer graph convolution over 1024 independent graphs of 48 nodes: a blocked kernel against an edge-list
  reference.

  For graph g let a(i, j) = 1 where adjs(g, i, j) > 1/2 and 0 elsewhere. Node j has degree deg(j) = Σ_i a(i, j) + 1
  (its in-edges and a self-loop) and scale factor s(j) = deg(j)^(-1/2). One layer sends node features Y to
  agg Y (j, k) = Σ_i ((a(i, j) + [i = j]) · s(i)) · s(j) · Y(i, k), and the network is
  out = agg (max (agg (X · W1) + b1, 0) · W2) + b2.

  The kernel computes this graph by graph, 256 graphs per grid point, with dense 48 × 48 coefficient matrices. The
  reference lists all 1024·48·48 candidate edges and the 49152 self-loops, adds each position's weight into a degree
  vector at its destination, and adds each position's scaled source row into a table at its destination. The two agree
  on the extended reals because (1) the positions landing on node (g, j) are exactly its 48 in-edges and its own
  self-loop; (2) a degree is a real number at least 1, where "r^(-1/2) if r > 0, else 0" is the inverse square root;
  (3) the self-loop's term folds into the diagonal of the coefficient matrix, by distributivity over nonnegative
  terms. Finiteness of the inputs is never used. The idealization changed nothing (an empty ledger).
-/
import proofs.«134418_g103079215284_cont_sun_m_88_9_alg».proof.Defs
import proofs.«134418_g103079215284_cont_sun_m_88_9_alg».proof.Proof.Gen.Kernel
import proofs.«134418_g103079215284_cont_sun_m_88_9_alg».proof.Proof.Gen.Kernel.Frame
import proofs.«134418_g103079215284_cont_sun_m_88_9_alg».proof.Proof.Gen.KernelIdeal
import proofs.«134418_g103079215284_cont_sun_m_88_9_alg».proof.Proof.Gen.KernelIdeal.Frame
import proofs.«134418_g103079215284_cont_sun_m_88_9_alg».proof.Proof.Gen.KernelIdeal.Value
import proofs.«134418_g103079215284_cont_sun_m_88_9_alg».proof.Proof.Gen.ReferenceIdeal
import proofs.«134418_g103079215284_cont_sun_m_88_9_alg».proof.Proof.Gen.Pre_finite_inputs
import proofs.«134418_g103079215284_cont_sun_m_88_9_alg».proof.Proof.KernelArrayRun
import proofs.«134418_g103079215284_cont_sun_m_88_9_alg».proof.Proof.RefRunPatched
import proofs.«134418_g103079215284_cont_sun_m_88_9_alg».proof.Proof.RefLayers
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealized programs end with the result array at the two-layer graph convolution of the argument arrays. -/
theorem algebraic : Cert.algebraic_KernelIdeal_ReferenceIdeal := by
  intro m ρ m' ρ' _ hagree
  refine ⟨_, Cert.KernelIdeal.GcnValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.res_eq, Cert.ReferenceIdeal.RefValue.result_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
